-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S100x128 : Shape := ⟨2, ![100, 128]⟩
abbrev S401x128 : Shape := ⟨2, ![401, 128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S128x128 : Shape := ⟨2, ![128, 128]⟩
abbrev S500000 : Shape := ⟨1, ![500000]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S100x128 : S_.BroadcastsInDim S100x128 (![] : Fin 0 → Fin S100x128.rank)
  reducesTo_S100x128_S_d0_1 : S100x128.ReducesTo [0, 1] S_
  bcast_S_S401x128 : S_.BroadcastsInDim S401x128 (![] : Fin 0 → Fin S401x128.rank)
  reducesTo_S401x128_S_d0_1 : S401x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  main_v53

def fn_part2 {F : FTy → Type} [FloatOps F] (main_arg7 : FVec F S64x128 .f32) (main_arg8 : FVec F S1x64 .f32) (main_arg9 : FVec F S1 .f32) (main_arg10 : FVec F S128x128 .f32) (main_v33 : IVec S_ 1) : IVec S_ 1 :=
  let main_v34 : FVec F S64x128 .f32 := Host.absf main_arg7
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S1x64 .f32 := Host.absf main_arg8
  let main_cst_14 : FVec F S_ .f32 := constant S_ .f32 0x7F800000#32
  let main_v40 : FVec F S1x64 .f32 := broadcastInDim S1x64 ![] bcast_S_S1x64 main_cst_14
  let main_v41 : IVec S1x64 1 := cmpf .olt main_v39 main_v40
  let main_c_15 : IVec S_ 1 := constantI S_ 1 1#1
  let main_v42 : IVec S_ 1 := (fun x v => Host.reduce IntOp.andi x v reducesTo_S1x64_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_v48 main_v49 main_v50

def fn_part1 {F : FTy → Type} [FloatOps F] (main_arg4 : FVec F S64 .f32) (main_arg5 : FVec F S64x128 .f32) (main_arg6 : FVec F S64x128 .f32) (main_arg7 : FVec F S64x128 .f32) (main_arg8 : FVec F S1x64 .f32) (main_arg9 : FVec F S1 .f32) (main_arg10 : FVec F S128x128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg5
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64x128 .f32 := Host.absf main_arg6
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S200000x128 .f32) (main_arg1 : FVec F S100x128 .f32) (main_arg2 : FVec F S401x128 .f32) (main_arg3 : FVec F S64x128 .f32) (main_arg4 : FVec F S64 .f32) (main_arg5 : FVec F S64x128 .f32) (main_arg6 : FVec F S64x128 .f32) (main_arg7 : FVec F S64x128 .f32) (main_arg8 : FVec F S1x64 .f32) (main_arg9 : FVec F S1 .f32) (main_arg10 : FVec F S128x128 .f32) (main_arg11 : IVec S500000 32) (main_arg12 : IVec S500000 32) (main_arg13 : IVec S500000 32) (main_arg14 : IVec S500000 32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S100x128 .f32 := Host.absf main_arg1
  let main_cst_0 : FVec F S_ .f32 := constant S_ .f32 0x7F800000#32
  let main_v5 : FVec F S100x128 .f32 := broadcastInDim S100x128 ![] bcast_S_S100x128 main_cst_0
  let main_v6 : IVec S100x128 1 := cmpf .olt main_v4 main_v5
  let main_c_1 : IVec S_ 1 := constantI S_ 1 1#1
  let main_v7 : IVec S_ 1 := (fun x v => Host.reduce IntOp.andi x v reducesTo_S100x128_S_d0_1 h_S_) main_v6 main_c_1
  let main_v8 : IVec S_ 1 := andi main_v3 main_v7
  let main_v9 : FVec F S401x128 .f32 := Host.absf main_arg2
  let main_cst_2 : FVec F S_ .f32 := constant S_ .f32 0x7F800000#32
  let main_v10 : FVec F S401x128 .f32 := broadcastInDim S401x128 ![] bcast_S_S401x128 main_cst_2
  let main_v11 : IVec S401x128 1 := cmpf .olt main_v9 main_v10
  let main_c_3 : IVec S_ 1 := constantI S_ 1 1#1
  let main_v12 : IVec S_ 1 := (fun x v => Host.reduce IntOp.andi x v reducesTo_S401x128_S_d0_1 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_arg7 main_arg8 main_arg9 main_arg10 main_v13 main_v16
-- ==== Kernel.lean ====
abbrev S200000x128 : Shape := ⟨2, ![200000, 128]⟩
abbrev S100x128 : Shape := ⟨2, ![100, 128]⟩
abbrev S401x128 : Shape := ⟨2, ![401, 128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S128x128 : Shape := ⟨2, ![128, 128]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S4000x128 : Shape := ⟨2, ![4000, 128]⟩
abbrev S4000x64 : Shape := ⟨2, ![4000, 64]⟩
abbrev S4000 : Shape := ⟨1, ![4000]⟩
abbrev S4000x1 : Shape := ⟨2, ![4000, 1]⟩
abbrev S1x1 : Shape := ⟨2, ![1, 1]⟩
abbrev S8000x128 : Shape := ⟨2, ![8000, 128]⟩

abbrev nBuf : Space → Nat
  | .hbm => 48
  | .vmem => 20
  | .smem => 0
  | _ => 0

abbrev bufTy : (tb : Table) → Fin (tcTables nBuf tb) → BufTy
  | .hbm, ⟨0, _⟩ => ⟨S200000x128, .f32⟩
  | .hbm, ⟨1, _⟩ => ⟨S100x128, .f32⟩
  | .hbm, ⟨2, _⟩ => ⟨S401x128, .f32⟩
  | .hbm, ⟨3, _⟩ => ⟨S64x128, .f32⟩
  | .hbm, ⟨4, _⟩ => ⟨S64, .f32⟩
  | .hbm, ⟨5, _⟩ => ⟨S64x128, .f32⟩
  | .hbm, ⟨6, _⟩ => ⟨S64x128, .f32⟩
  | .hbm, ⟨7, _⟩ => ⟨S64x128, .f32⟩
  | .hbm, ⟨8, _⟩ => ⟨S1x64, .f32⟩
  | .hbm, ⟨9, _⟩ => ⟨S1, .f32⟩
  | .hbm, ⟨10, _⟩ => ⟨S128x128, .f32⟩
  | .hbm, ⟨11, _⟩ => ⟨S500000, .i32⟩
  | .hbm, ⟨12, _⟩ => ⟨S500000, .i32⟩
  | .hbm, ⟨13, _⟩ => ⟨S500000, .i32⟩
  | .hbm, ⟨14, _⟩ => ⟨S500000, .i32⟩
  | .hbm, ⟨15, _⟩ => ⟨S_, .i32⟩
  | .hbm, ⟨16, _⟩ => ⟨S500000, .i32⟩
  | .hbm, ⟨17, _⟩ => ⟨S500000, .i1⟩
  | .hbm, ⟨18, _⟩ => ⟨S_, .i32⟩
  | .hbm, ⟨19, _⟩ => ⟨S500000, .i32⟩
  | .hbm, ⟨20, _⟩ => ⟨S500000, .i32⟩
  | .hbm, ⟨21, _⟩ => ⟨S500000, .i32⟩
  | .hbm, ⟨22, _⟩ => ⟨S500000x1, .i32⟩
  | .hbm, ⟨23, _⟩ => ⟨S500000x128, .f32⟩
  | .hbm, ⟨24, _⟩ => ⟨S_, .i32⟩
  | .hbm, ⟨25, _⟩ => ⟨S500000, .i32⟩
  | .hbm, ⟨26, _⟩ => ⟨S500000, .i1⟩
  | .hbm, ⟨27, _⟩ => ⟨S_, .i32⟩
  | .hbm, ⟨28, _⟩ => ⟨S500000, .i32⟩
  | .hbm, ⟨29, _⟩ => ⟨S500000, .i32⟩
  | .hbm, ⟨30, _⟩ => ⟨S500000, .i32⟩
  | .hbm, ⟨31, _⟩ => ⟨S500000x1, .i32⟩
  | .hbm, ⟨32, _⟩ => ⟨S500000x128, .f32⟩
  | .hbm, ⟨33, _⟩ => ⟨S_, .i32⟩
  | .hbm, ⟨34, _⟩ => ⟨S500000, .i32⟩
  | .hbm, ⟨35, _⟩ => ⟨S500000, .i1⟩
  | .hbm, ⟨36, _⟩ => ⟨S_, .i32⟩
  | .hbm, ⟨37, _⟩ => ⟨S500000, .i32⟩
  | .hbm, ⟨38, _⟩ => ⟨S500000, .i32⟩
  | .hbm, ⟨39, _⟩ => ⟨S500000, .i32⟩
  | .hbm, ⟨40, _⟩ => ⟨S500000x1, .i32⟩
  | .hbm, ⟨41, _⟩ => ⟨S500000x128, .f32⟩
  | .hbm, ⟨42, _⟩ => ⟨S500000x128, .f32⟩
  | .hbm, ⟨43, _⟩ => ⟨S_, .f32⟩
  | .hbm, ⟨44, _⟩ => ⟨S200000x128, .f32⟩
  | .hbm, ⟨45, _⟩ => ⟨S500000x1, .i32⟩
  | .hbm, ⟨46, _⟩ => ⟨S200000x128, .f32⟩
  | .hbm, ⟨47, _⟩ => ⟨S200000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S64x128, .f32⟩
  | .local _ .vmem, ⟨7, _⟩ => ⟨S64, .f32⟩
  | .local _ .vmem, ⟨8, _⟩ => ⟨S64x128, .f32⟩
  | .local _ .vmem, ⟨9, _⟩ => ⟨S64x128, .f32⟩
  | .local _ .vmem, ⟨10, _⟩ => ⟨S64x128, .f32⟩
  | .local _ .vmem, ⟨11, _⟩ => ⟨S1x64, .f32⟩
  | .local _ .vmem, ⟨12, _⟩ => ⟨S1, .f32⟩
  | .local _ .vmem, ⟨13, _⟩ => ⟨S4000x128, .f32⟩
  | .local _ .vmem, ⟨14, _⟩ => ⟨S4000x128, .f32⟩
  | .local _ .vmem, ⟨15, _⟩ => ⟨S8000x128, .f32⟩
  | .local _ .vmem, ⟨16, _⟩ => ⟨S8000x128, .f32⟩
  | .local _ .vmem, ⟨17, _⟩ => ⟨S128x128, .f32⟩
  | .local _ .vmem, ⟨18, _⟩ => ⟨S8000x128, .f32⟩
  | .local _ .vmem, ⟨19, _⟩ => ⟨S8000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_3 : Ref sig .tc := ⟨.hbm, 33, rfl⟩
abbrev main_v14 : Ref sig .tc := ⟨.hbm, 34, rfl⟩
abbrev main_v15 : Ref sig .tc := ⟨.hbm, 35, rfl⟩
abbrev main_c_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg2_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem2_1 : DmaSem sig := 19

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S1x64_S1x64_0_0 : ∀ a, (![0, 0] : Fin 2 → Nat) a + S1x64.size a ≤ S1x64.size a
  h_S1x64 : 0 < S1x64.numel
  reduces_S4000x64_S4000 : S4000x64.Reduces [1] S4000
  shapeCasts_S4000_S4000x1 : S4000.ShapeCasts S4000x1
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  broadcasts_S4000x1_S4000x128 : S4000x1.Broadcasts S4000x128
  bcast_S_S200000x128 : S_.BroadcastsInDim S200000x128 (![] : Fin 0 → Fin S200000x128.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  gather_S200000x128_S500000x1_S500000x128_1_0_n_n_0_1_1128_wf : GatherDims.WF S200000x128 S500000x1 S500000x128 [1] [0] [] [0] [] 1 ![1, 128]
  gather_S401x128_S500000x1_S500000x128_1_0_n_n_0_1_1128_wf : GatherDims.WF S401x128 S500000x1 S500000x128 [1] [0] [] [0] [] 1 ![1, 128]
  gather_S100x128_S500000x1_S500000x128_1_0_n_n_0_1_1128_wf : GatherDims.WF S100x128 S500000x1 S500000x128 [1] [0] [] [0] [] 1 ![1, 128]
  dot_S4000x128_S64x128_S4000x64_1_1_0_0_n_n_wf : DotDims.WF S4000x128 S64x128 S4000x64 [1] [1] [0] [0] [] []
  scatter_S200000x128_S500000x1_S500000x128_1_0_0_1_wf : ScatterDims.WF S200000x128 S500000x1 S500000x128 [1] [0] [0] 1
  dot_S8000x128_S128x128_S8000x128_1_1_0_0_n_n_wf : DotDims.WF S8000x128 S128x128 S8000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S500000x128.size a
  hwx0_0 : ∀ i : grid0.Coords, EltTy.bits .f32 = 32 ∨ (Rect.block (s := S500000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S500000x128.size a
  hwx0_1 : ∀ i : grid0.Coords, EltTy.bits .f32 = 32 ∨ (Rect.block (s := S500000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S500000x128.size a
  hwx0_2 : ∀ i : grid0.Coords, EltTy.bits .f32 = 32 ∨ (Rect.block (s := S500000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .f32 = 32 ∨ (Rect.block (s := S64x128) S64x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S64x128.size a
  hwx0_7 : ∀ i : grid0.Coords, EltTy.bits .f32 = 32 ∨ (Rect.block (s := S64x128) S64x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x128.size a ≤ S500000x128.size a
  hwx0_10 : ∀ i : grid0.Coords, EltTy.bits .f32 = 32 ∨ (Rect.block (s := S500000x128) S4000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S200000x128.size a
  hwx1_0 : ∀ i : grid1.Coords, EltTy.bits .f32 = 32 ∨ (Rect.block (s := S200000x128) S8000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x128.size a ≤ S200000x128.size a
  hwx1_2 : ∀ i : grid1.Coords, EltTy.bits .f32 = 32 ∨ (Rect.block (s := S200000x128) S8000x128.size (cc1_transform_2 i) (hinb1_2 i)).WholeWords (EltTy.packing .f32)

variable [Facts₀]

def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def gather_S401x128_S500000x1_S500000x128_1_0_n_n_0_1_1128 : GatherDims S401x128 S500000x1 S500000x128 where
  offsetDims := [1]
  collapsedSliceDims := [0]
  operandBatchingDims := []
  startIndicesBatchingDims := []
  startIndexMap := [0]
  indexVectorDim := 1
  sliceSizes := ![1, 128]
  wf := gather_S401x128_S500000x1_S500000x128_1_0_n_n_0_1_1128_wf
def gather_S100x128_S500000x1_S500000x128_1_0_n_n_0_1_1128 : GatherDims S100x128 S500000x1 S500000x128 where
  offsetDims := [1]
  collapsedSliceDims := [0]
  operandBatchingDims := []
  startIndicesBatchingDims := []
  startIndexMap := [0]
  indexVectorDim := 1
  sliceSizes := ![1, 128]
  wf := gather_S100x128_S500000x1_S500000x128_1_0_n_n_0_1_1128_wf
def dot_S4000x128_S64x128_S4000x64_1_1_0_0_n_n : DotDims S4000x128 S64x128 S4000x64 where
  lhsContracting := [1]
  rhsContracting := [1]
  lhsNonContracting := [0]
  rhsNonContracting := [0]
  lhsBatch := []
  rhsBatch := []
  wf := dot_S4000x128_S64x128_S4000x64_1_1_0_0_n_n_wf
def scatter_S200000x128_S500000x1_S500000x128_1_0_0_1 : ScatterDims S200000x128 S500000x1 S500000x128 where
  updateWindowDims := [1]
  insertedWindowDims := [0]
  scatterDimsToOperandDims := [0]
  indexVectorDim := 1
  wf := scatter_S200000x128_S500000x1_S500000x128_1_0_0_1_wf
def dot_S8000x128_S128x128_S8000x128_1_1_0_0_n_n : DotDims S8000x128 S128x128 S8000x128 where
  lhsContracting := [1]
  rhsContracting := [1]
  lhsNonContracting := [0]
  rhsNonContracting := [0]
  lhsBatch := []
  rhsBatch := []
  wf := dot_S8000x128_S128x128_S8000x128_1_1_0_0_n_n_wf

abbrev win0_0 : Pipeline.Window sig grid0 :=
  Pipeline.Window.ofSpec (Memref.whole main_v6) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v21) S4000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v24) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S8000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S200000x128 : Shape := ⟨2, ![200000, 128]⟩
abbrev S100x128 : Shape := ⟨2, ![100, 128]⟩
abbrev S401x128 : Shape := ⟨2, ![401, 128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S128x128 : Shape := ⟨2, ![128, 128]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S500000x64 : Shape := ⟨2, ![500000, 64]⟩
abbrev S64x1 : Shape := ⟨2, ![64, 1]⟩
abbrev S1x1 : Shape := ⟨2, ![1, 1]⟩

abbrev nBuf : Space → Nat
  | .hbm => 78
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S100x128, .f32⟩
  | .hbm, ⟨2, _⟩ => ⟨S401x128, .f32⟩
  | .hbm, ⟨3, _⟩ => ⟨S64x128, .f32⟩
  | .hbm, ⟨4, _⟩ => ⟨S64, .f32⟩
  | .hbm, ⟨5, _⟩ => ⟨S64x128, .f32⟩
  | .hbm, ⟨6, _⟩ => ⟨S64x128, .f32⟩
  | .hbm, ⟨7, _⟩ => ⟨S64x128, .f32⟩
  | .hbm, ⟨8, _⟩ => ⟨S1x64, .f32⟩
  | .hbm, ⟨9, _⟩ => ⟨S1, .f32⟩
  | .hbm, ⟨10, _⟩ => ⟨S128x128, .f32⟩
  | .hbm, ⟨11, _⟩ => ⟨S500000, .i32⟩
  | .hbm, ⟨12, _⟩ => ⟨S500000, .i32⟩
  | .hbm, ⟨13, _⟩ => ⟨S500000, .i32⟩
  | .hbm, ⟨14, _⟩ => ⟨S500000, .i32⟩
  | .hbm, ⟨15, _⟩ => ⟨S_, .i32⟩
  | .hbm, ⟨16, _⟩ => ⟨S500000, .i32⟩
  | .hbm, ⟨17, _⟩ => ⟨S500000, .i1⟩
  | .hbm, ⟨18, _⟩ => ⟨S_, .i32⟩
  | .hbm, ⟨19, _⟩ => ⟨S500000, .i32⟩
  | .hbm, ⟨20, _⟩ => ⟨S500000, .i32⟩
  | .hbm, ⟨21, _⟩ => ⟨S500000, .i32⟩
  | .hbm, ⟨22, _⟩ => ⟨S500000x1, .i32⟩
  | .hbm, ⟨23, _⟩ => ⟨S500000x128, .f32⟩
  | .hbm, ⟨24, _⟩ => ⟨S_, .i32⟩
  | .hbm, ⟨25, _⟩ => ⟨S500000, .i32⟩
  | .hbm, ⟨26, _⟩ => ⟨S500000, .i1⟩
  | .hbm, ⟨27, _⟩ => ⟨S_, .i32⟩
  | .hbm, ⟨28, _⟩ => ⟨S500000, .i32⟩
  | .hbm, ⟨29, _⟩ => ⟨S500000, .i32⟩
  | .hbm, ⟨30, _⟩ => ⟨S500000, .i32⟩
  | .hbm, ⟨31, _⟩ => ⟨S500000x1, .i32⟩
  | .hbm, ⟨32, _⟩ => ⟨S500000x128, .f32⟩
  | .hbm, ⟨33, _⟩ => ⟨S_, .i32⟩
  | .hbm, ⟨34, _⟩ => ⟨S500000, .i32⟩
  | .hbm, ⟨35, _⟩ => ⟨S500000, .i1⟩
  | .hbm, ⟨36, _⟩ => ⟨S_, .i32⟩
  | .hbm, ⟨37, _⟩ => ⟨S500000, .i32⟩
  | .hbm, ⟨38, _⟩ => ⟨S500000, .i32⟩
  | .hbm, ⟨39, _⟩ => ⟨S500000, .i32⟩
  | .hbm, ⟨40, _⟩ => ⟨S500000x1, .i32⟩
  | .hbm, ⟨41, _⟩ => ⟨S500000x128, .f32⟩
  | .hbm, ⟨42, _⟩ => ⟨S500000x64, .f32⟩
  | .hbm, ⟨43, _⟩ => ⟨S1x64, .f32⟩
  | .hbm, ⟨44, _⟩ => ⟨S500000x64, .f32⟩
  | .hbm, ⟨45, _⟩ => ⟨S500000x64, .f32⟩
  | .hbm, ⟨46, _⟩ => ⟨S500000x64, .f32⟩
  | .hbm, ⟨47, _⟩ => ⟨S500000x64, .f32⟩
  | .hbm, ⟨48, _⟩ => ⟨S500000x64, .f32⟩
  | .hbm, ⟨49, _⟩ => ⟨S500000x64, .f32⟩
  | .hbm, ⟨50, _⟩ => ⟨S500000x128, .f32⟩
  | .hbm, ⟨51, _⟩ => ⟨S500000x64, .f32⟩
  | .hbm, ⟨52, _⟩ => ⟨S500000x64, .f32⟩
  | .hbm, ⟨53, _⟩ => ⟨S_, .f32⟩
  | .hbm, ⟨54, _⟩ => ⟨S500000x64, .f32⟩
  | .hbm, ⟨55, _⟩ => ⟨S500000x64, .f32⟩
  | .hbm, ⟨56, _⟩ => ⟨S64x1, .f32⟩
  | .hbm, ⟨57, _⟩ => ⟨S500000x1, .f32⟩
  | .hbm, ⟨58, _⟩ => ⟨S1x1, .f32⟩
  | .hbm, ⟨59, _⟩ => ⟨S500000x1, .f32⟩
  | .hbm, ⟨60, _⟩ => ⟨S500000x1, .f32⟩
  | .hbm, ⟨61, _⟩ => ⟨S500000x1, .f32⟩
  | .hbm, ⟨62, _⟩ => ⟨S500000x1, .f32⟩
  | .hbm, ⟨63, _⟩ => ⟨S_, .f32⟩
  | .hbm, ⟨64, _⟩ => ⟨S500000x1, .f32⟩
  | .hbm, ⟨65, _⟩ => ⟨S500000x1, .f32⟩
  | .hbm, ⟨66, _⟩ => ⟨S_, .f32⟩
  | .hbm, ⟨67, _⟩ => ⟨S500000x1, .f32⟩
  | .hbm, ⟨68, _⟩ => ⟨S500000x1, .f32⟩
  | .hbm, ⟨69, _⟩ => ⟨S500000x128, .f32⟩
  | .hbm, ⟨70, _⟩ => ⟨S500000x128, .f32⟩
  | .hbm, ⟨71, _⟩ => ⟨S500000x128, .f32⟩
  | .hbm, ⟨72, _⟩ => ⟨S_, .f32⟩
  | .hbm, ⟨73, _⟩ => ⟨S200000x128, .f32⟩
  | .hbm, ⟨74, _⟩ => ⟨S500000x1, .i32⟩
  | .hbm, ⟨75, _⟩ => ⟨S200000x128, .f32⟩
  | .hbm, ⟨76, _⟩ => ⟨S128x128, .f32⟩
  | .hbm, ⟨77, _⟩ => ⟨S200000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_3 : Ref sig .tc := ⟨.hbm, 33, rfl⟩
abbrev main_v14 : Ref sig .tc := ⟨.hbm, 34, rfl⟩
abbrev main_v15 : Ref sig .tc := ⟨.hbm, 35, rfl⟩
abbrev main_c_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_call0_cst : Ref sig .tc := ⟨.hbm, 53, rfl⟩
abbrev main_call0_v0 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst : Ref sig .tc := ⟨.hbm, 63, rfl⟩
abbrev main_v40 : Ref sig .tc := ⟨.hbm, 64, rfl⟩
abbrev main_v41 : Ref sig .tc := ⟨.hbm, 65, rfl⟩
abbrev main_cst_5 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  transposes_S1x64_S64x1_1_0 : S1x64.Transposes [1, 0] S64x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  bcast_S500000x1_S500000x128_0_1 : S500000x1.BroadcastsInDim S500000x128 (![0, 1] : Fin 2 → Fin S500000x128.rank)
  bcast_S_S200000x128 : S_.BroadcastsInDim S200000x128 (![] : Fin 0 → Fin S200000x128.rank)
  transposes_S128x128_S128x128_1_0 : S128x128.Transposes [1, 0] S128x128
  gather_S200000x128_S500000x1_S500000x128_1_0_n_n_0_1_1128_wf : GatherDims.WF S200000x128 S500000x1 S500000x128 [1] [0] [] [0] [] 1 ![1, 128]
  gather_S401x128_S500000x1_S500000x128_1_0_n_n_0_1_1128_wf : GatherDims.WF S401x128 S500000x1 S500000x128 [1] [0] [] [0] [] 1 ![1, 128]
  gather_S100x128_S500000x1_S500000x128_1_0_n_n_0_1_1128_wf : GatherDims.WF S100x128 S500000x1 S500000x128 [1] [0] [] [0] [] 1 ![1, 128]
  dot_S500000x128_S64x128_S500000x64_1_1_0_0_n_n_wf : DotDims.WF S500000x128 S64x128 S500000x64 [1] [1] [0] [0] [] []
  dot_S500000x64_S64x1_S500000x1_1_0_0_1_n_n_wf : DotDims.WF S500000x64 S64x1 S500000x1 [1] [0] [0] [1] [] []
  scatter_S200000x128_S500000x1_S500000x128_1_0_0_1_wf : ScatterDims.WF S200000x128 S500000x1 S500000x128 [1] [0] [0] 1
  dot_S200000x128_S128x128_S200000x128_1_0_0_1_n_n_wf : DotDims.WF S200000x128 S128x128 S200000x128 [1] [0] [0] [1] [] []

variable [Facts₀]

def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def gather_S401x128_S500000x1_S500000x128_1_0_n_n_0_1_1128 : GatherDims S401x128 S500000x1 S500000x128 where
  offsetDims := [1]
  collapsedSliceDims := [0]
  operandBatchingDims := []
  startIndicesBatchingDims := []
  startIndexMap := [0]
  indexVectorDim := 1
  sliceSizes := ![1, 128]
  wf := gather_S401x128_S500000x1_S500000x128_1_0_n_n_0_1_1128_wf
def gather_S100x128_S500000x1_S500000x128_1_0_n_n_0_1_1128 : GatherDims S100x128 S500000x1 S500000x128 where
  offsetDims := [1]
  collapsedSliceDims := [0]
  operandBatchingDims := []
  startIndicesBatchingDims := []
  startIndexMap := [0]
  indexVectorDim := 1
  sliceSizes := ![1, 128]
  wf := gather_S100x128_S500000x1_S500000x128_1_0_n_n_0_1_1128_wf
def dot_S500000x128_S64x128_S500000x64_1_1_0_0_n_n : DotDims S500000x128 S64x128 S500000x64 where
  lhsContracting := [1]
  rhsContracting := [1]
  lhsNonContracting := [0]
  rhsNonContracting := [0]
  lhsBatch := []
  rhsBatch := []
  wf := dot_S500000x128_S64x128_S500000x64_1_1_0_0_n_n_wf
def dot_S500000x64_S64x1_S500000x1_1_0_0_1_n_n : DotDims S500000x64 S64x1 S500000x1 where
  lhsContracting := [1]
  rhsContracting := [0]
  lhsNonContracting := [0]
  rhsNonContracting := [1]
  lhsBatch := []
  rhsBatch := []
  wf := dot_S500000x64_S64x1_S500000x1_1_0_0_1_n_n_wf
def scatter_S200000x128_S500000x1_S500000x128_1_0_0_1 : ScatterDims S200000x128 S500000x1 S500000x128 where
  updateWindowDims := [1]
  insertedWindowDims := [0]
  scatterDimsToOperandDims := [0]
  indexVectorDim := 1
  wf := scatter_S200000x128_S500000x1_S500000x128_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf

class Facts : Prop extends Facts₀ where

variable [Facts]
-- ==== Proof.KernelRun.lean ====
/-
  The kernel program's run with its result buffer named. The program is four segments: the host lines that gather the
  three arrays of rows, the first launch, the host lines that add the messages into a zero array at their target nodes,
  and the second launch. At each segment boundary every buffer's contents are a function of the launch memory; after the
  last segment the result buffer holds what the last boundary's contents give it, and each argument array what it held
  at launch.
-/
import proofs.«175758_j82678120448825_2_alg».proof.Proof.Gen.KernelIdeal.Frame
import Idealize.ShloMosaic.Lib.Pipeline.Value
import Idealize.ShloMosaic.Lib.StableHlo.Run

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, the result buffer ends at what the last
    segment boundary's contents give it, and the argument arrays end as launched. -/
theorem run_named : θ_run defs (onTc (τ := τ) (main (F := F))) ⟨m, fun _ => 0, ρ⟩ (fun r => ∀ c : Dev nD,
      r.2.mem ((c.tc : Thread nD τ).loc main_v25) = W4 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v25 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c)⟩)

end Cert.KernelIdeal.RunValue

end
-- ==== Proof.Boundaries.lean ====
/-
  What the buffers hold at the boundaries between the program's segments, as functions of the launch memory. Before the
  first launch: the three gathered arrays (each a gather of a table's rows at an index column whose negative entries are
  wrapped by the table's row count) and the weights as launched. Before the second launch: the first launch's output
  added into a zero array at the rows the target-node indices name, and the output weight as launched. After it: the
  result buffer at what the second launch's write-backs leave.
-/
import proofs.«175758_j82678120448825_2_alg».proof.Proof.Gen.KernelIdeal.Frame
import Idealize.ShloMosaic.Lib.StableHlo.Run

set_option maxRecDepth 16384

noncomputable section

namespace Cert.KernelIdeal.Boundaries

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A start-index column: an index vector with its negative entries wrapped by the table's row count, stood up as a
    column. -/
abbrev startCol (n : BitVec 32) (x : (⟨S500000, .i32⟩ : BufTy).Contents (Elt F)) : (⟨S500000x1, .i32⟩ : BufTy).Contents (Elt F) :=
  broadcastInDim S500000x1 ![0] bcast_S500000_S500000x1_0
    (select (cmpi .slt x (broadcastInDim S500000 ![] bcast_S_S500000 (constantI S_ 32 0#32)))
      (addi x (broadcastInDim S500000 ![] bcast_S_S500000 (constantI S_ 32 n))) x)

/-- The first launch finds the gathered subject rows in its first operand. -/
theorem entry_v6 (c : Dev nD) : V1 m ρ c main_v6
    = Host.gather gather_S200000x128_S500000x1_S500000x128_1_0_n_n_0_1_1128 (m ((c : Thread nD τ).loc main_arg0))
        (startCol 200000#32 (m ((c : Thread nD τ).loc main_arg13))) := by
  show StableHlo.after hostOps0 (W0 m ρ c) (Proc.devRef .tc main_v6) = _
  after_results

/-- … the gathered relation rows in its second … -/
theorem entry_v13 (c : Dev nD) : V1 m ρ c main_v13
    = Host.gather gather_S401x128_S500000x1_S500000x128_1_0_n_n_0_1_1128 (m ((c : Thread nD τ).loc main_arg2))
        (startCol 401#32 (m ((c : Thread nD τ).loc main_arg12))) := by
  show StableHlo.after hostOps0 (W0 m ρ c) (Proc.devRef .tc main_v13) = _
  after_results

/-- … and the gathered query rows in its third. -/
theorem entry_v20 (c : Dev nD) : V1 m ρ c main_v20
    = Host.gather gather_S100x128_S500000x1_S500000x128_1_0_n_n_0_1_1128 (m ((c : Thread nD τ).loc main_arg1))
        (startCol 100#32 (m ((c : Thread nD τ).loc main_arg11))) := by
  show StableHlo.after hostOps0 (W0 m ρ c) (Proc.devRef .tc main_v20) = _
  after_results_simp

/-- No host line before the first launch writes an argument. -/
theorem entry_arg3 (c : Dev nD) : V1 m ρ c main_arg3 = m ((c : Thread nD τ).loc main_arg3) := by
  show StableHlo.after hostOps0 (W0 m ρ c) (Proc.devRef .tc main_arg3) = _
  after_results
theorem entry_arg4 (c : Dev nD) : V1 m ρ c main_arg4 = m ((c : Thread nD τ).loc main_arg4) := by
  show StableHlo.after hostOps0 (W0 m ρ c) (Proc.devRef .tc main_arg4) = _
  after_results
theorem entry_arg5 (c : Dev nD) : V1 m ρ c main_arg5 = m ((c : Thread nD τ).loc main_arg5) := by
  show StableHlo.after hostOps0 (W0 m ρ c) (Proc.devRef .tc main_arg5) = _
  after_results
theorem entry_arg6 (c : Dev nD) : V1 m ρ c main_arg6 = m ((c : Thread nD τ).loc main_arg6) := by
  show StableHlo.after hostOps0 (W0 m ρ c) (Proc.devRef .tc main_arg6) = _
  after_results
theorem entry_arg7 (c : Dev nD) : V1 m ρ c main_arg7 = m ((c : Thread nD τ).loc main_arg7) := by
  show StableHlo.after hostOps0 (W0 m ρ c) (Proc.devRef .tc main_arg7) = _
  after_results
theorem entry_arg8 (c : Dev nD) : V1 m ρ c main_arg8 = m ((c : Thread nD τ).loc main_arg8) := by
  show StableHlo.after hostOps0 (W0 m ρ c) (Proc.devRef .tc main_arg8) = _
  after_results
theorem entry_arg9 (c : Dev nD) : V1 m ρ c main_arg9 = m ((c : Thread nD τ).loc main_arg9) := by
  show StableHlo.after hostOps0 (W0 m ρ c) (Proc.devRef .tc main_arg9) = _
  after_results

/-- The first launch writes neither the target-node indices nor the output weight, and no host line before it does. -/
theorem mid_arg14 (c : Dev nD) : W2 m ρ c (Proc.devRef .tc main_arg14) = m ((c : Thread nD τ).loc main_arg14) := by
  rw [W2_of_ne m ρ c main_arg14 (by decide)]
  show StableHlo.after hostOps0 (W0 m ρ c) (Proc.devRef .tc main_arg14) = _
  after_results
theorem mid_arg10 (c : Dev nD) : W2 m ρ c (Proc.devRef .tc main_arg10) = m ((c : Thread nD τ).loc main_arg10) := by
  rw [W2_of_ne m ρ c main_arg10 (by decide)]
  show StableHlo.after hostOps0 (W0 m ρ c) (Proc.devRef .tc main_arg10) = _
  after_results

/-- The second launch finds, in its first operand, the messages the first launch left, added into a zero array at the
    rows the target-node indices name. -/
theorem entry_v24 (c : Dev nD) : V3 m ρ c main_v24
    = Host.scatterAdd scatter_S200000x128_S500000x1_S500000x128_1_0_0_1
        (broadcastInDim S200000x128 ![] bcast_S_S200000x128 (constant S_ .f32 0x00000000#32))
        (broadcastInDim S500000x1 ![0] bcast_S500000_S500000x1_0 (m ((c : Thread nD τ).loc main_arg14)))
        ((dat0 (V1 m ρ) c).arrAt 10 cfg0.N) := by
  show StableHlo.after hostOps1 (W2 m ρ c) (Proc.devRef .tc main_v24) = _
  after_results
  rw [mid_arg14, show W2 m ρ c (Proc.devRef .tc main_v21) = (dat0 (V1 m ρ) c).arrAt 10 cfg0.N from W2_arr m ρ c 10]

/-- … and the output weight in its second. -/
theorem entry_arg10 (c : Dev nD) : V3 m ρ c main_arg10 = m ((c : Thread nD τ).loc main_arg10) := by
  show StableHlo.after hostOps1 (W2 m ρ c) (Proc.devRef .tc main_arg10) = _
  after_results
  exact mid_arg10 m ρ c

/-- The result buffer ends at what the second launch's write-backs leave. -/
theorem result_buffer (c : Dev nD) : W4 m ρ c (Proc.devRef .tc main_v25) = (dat1 (V3 m ρ) c).arrAt 2 cfg1.N :=
  W4_arr m ρ c 2

end Cert.KernelIdeal.Boundaries

end
-- ==== Proof.EdgeMessage.lean ====
/-
  The message one edge sends, as a function of the three embedding rows gathered for it and of the weights, over the
  extended reals.

  For an edge with subject row `hs`, relation row `hr` and query row `hq` (each of 128 entries), attention unit `a`
  (of 64) has the pre-activation

      pre a = Σ_k hs k · Ws a k  +  b a  +  Σ_k hr k · Wr a k  +  Σ_k hq k · Wq a k  +  Σ_k (hr k · hq k) · Wqr a k,

  summed in this order. The edge's gate is the logistic function of  Σ_a max (pre a) 0 · wa a + wb,  and entry `d` of
  its message is  gate · (hs d · hr d).  The node update multiplies the aggregated messages by the transposed output
  weight:  out n o = Σ_k agg n k · Wh o k.
-/
import Idealize.ShloMosaic.PureOps.Ideal
import Idealize.ShloMosaic.Lib.ValueIdx

noncomputable section

namespace EdgeMessage

open Idealize.ShloMosaic

/-- Attention unit `a`'s pre-activation for one edge: four products of a gathered row with a weight row and a bias, added
    in the order the terms are written. -/
def pre (hs hr hq : Fin 128 → EReal) (Ws Wr Wq Wqr : Fin 64 → Fin 128 → EReal) (b : Fin 64 → EReal) (a : Fin 64) : EReal :=
  (∑ k : Fin 128, hs k * Ws a k) + b a + (∑ k : Fin 128, hr k * Wr a k) + (∑ k : Fin 128, hq k * Wq a k)
    + ∑ k : Fin 128, hr k * hq k * Wqr a k

/-- The edge's gate: the logistic function of the rectified pre-activations weighted by `wa`, plus `wb`. -/
def gate (hs hr hq : Fin 128 → EReal) (Ws Wr Wq Wqr : Fin 64 → Fin 128 → EReal) (b wa : Fin 64 → EReal) (wb : EReal) : EReal :=
  Ideal.logistic ((∑ a : Fin 64, max (pre hs hr hq Ws Wr Wq Wqr b a) (Ideal.ofBits .f32 0x00000000#32) * wa a) + wb)

/-- Entry `d` of the edge's message: the gate times the product of the subject and relation rows at `d`. -/
def msg (hs hr hq : Fin 128 → EReal) (Ws Wr Wq Wqr : Fin 64 → Fin 128 → EReal) (b wa : Fin 64 → EReal) (wb : EReal)
    (d : Fin 128) : EReal :=
  gate hs hr hq Ws Wr Wq Wqr b wa wb * (hs d * hr d)

end EdgeMessage

end
-- ==== Proof.MessageArray.lean ====
/-
  The edges' messages as one array: row `e` of the message array is the message of the edge whose gathered subject,
  relation and query rows are rows `e` of three arrays of `n` rows, the weights being whole arrays. And the node update
  as one array: entry `(v, o)` is the sum over `k` of the aggregated message at `(v, k)` times the output weight at
  `(o, k)`.
-/
import proofs.«175758_j82678120448825_2_alg».proof.Proof.EdgeMessage
import Idealize.ShloMosaic.Lib.ValueIdx

noncomputable section

namespace EdgeMessage

open Idealize.ShloMosaic Idealize.ShloMosaic.ValueIdx

/-- The message array of `n` edges from the three gathered arrays and the weight arrays. -/
def ofArrays {n : ℕ} (hs hr hq : (⟨2, ![n, 128]⟩ : Shape).Idx → EReal) (ws wr wq wqr : (⟨2, ![64, 128]⟩ : Shape).Idx → EReal)
    (b : (⟨1, ![64]⟩ : Shape).Idx → EReal) (wa : (⟨2, ![1, 64]⟩ : Shape).Idx → EReal) (wb : (⟨1, ![1]⟩ : Shape).Idx → EReal) :
    (⟨2, ![n, 128]⟩ : Shape).Idx → EReal :=
  fun i => msg (fun k => hs (ix2 (i 0) k)) (fun k => hr (ix2 (i 0) k)) (fun k => hq (ix2 (i 0) k))
    (fun a k => ws (ix2 a k)) (fun a k => wr (ix2 a k)) (fun a k => wq (ix2 a k)) (fun a k => wqr (ix2 a k))
    (fun a => b (ix1 a)) (fun a => wa (ix2 (0 : Fin 1) a)) (wb (ix1 (0 : Fin 1))) (i 1)

/-- Read at row `e`, column `d`. -/
theorem ofArrays_apply {n : ℕ} (hs hr hq : (⟨2, ![n, 128]⟩ : Shape).Idx → EReal) (ws wr wq wqr : (⟨2, ![64, 128]⟩ : Shape).Idx → EReal)
    (b : (⟨1, ![64]⟩ : Shape).Idx → EReal) (wa : (⟨2, ![1, 64]⟩ : Shape).Idx → EReal) (wb : (⟨1, ![1]⟩ : Shape).Idx → EReal)
    (e : Fin n) (d : Fin 128) :
    ofArrays hs hr hq ws wr wq wqr b wa wb (ix2 e d)
      = msg (fun k => hs (ix2 e k)) (fun k => hr (ix2 e k)) (fun k => hq (ix2 e k))
          (fun a k => ws (ix2 a k)) (fun a k => wr (ix2 a k)) (fun a k => wq (ix2 a k)) (fun a k => wqr (ix2 a k))
          (fun a => b (ix1 a)) (fun a => wa (ix2 (0 : Fin 1) a)) (wb (ix1 (0 : Fin 1))) d := rfl

/-- The node update: the aggregated messages times the transposed output weight. -/
def update {n : ℕ} (agg : (⟨2, ![n, 128]⟩ : Shape).Idx → EReal) (wh : (⟨2, ![128, 128]⟩ : Shape).Idx → EReal) :
    (⟨2, ![n, 128]⟩ : Shape).Idx → EReal :=
  fun i => ∑ k : Fin 128, agg (ix2 (i 0) k) * wh (ix2 (i 1) k)

/-- Read at node `v`, output column `o`. -/
theorem update_apply {n : ℕ} (agg : (⟨2, ![n, 128]⟩ : Shape).Idx → EReal) (wh : (⟨2, ![128, 128]⟩ : Shape).Idx → EReal)
    (v : Fin n) (o : Fin 128) : update agg wh (ix2 v o) = ∑ k : Fin 128, agg (ix2 v k) * wh (ix2 o k) := rfl

end EdgeMessage

end
-- ==== Proof.LibColumn.lean ====
/-
  Column-shaped layout operations read at an index: a column [a, 1] flattened to [a] and back, a column
  broadcast along its rows to [a, b], and a lane reduction of an [a, b] array read at a row as a sum or a
  maximum over the row. Each says which single element (or which row) of the operand an element of the result reads.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnIdx

open Idealize.ShloMosaic ValueIdx

variable {α : Type}

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of an `[a, b]` array (a `multi_reduction <add>` over axis 1 from the zero word), read at row `p`
    at the ideal instance: the sum of the row. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (funext fun ax => Fin.ext (by
      match ax with
      | ⟨0, _⟩ => rfl
      | ⟨1, _⟩ => rfl)))

/-- A lane maximum of an `[a, b]` array (a `multi_reduction <maximumf>` over axis 1 from the word of -∞), read at row
    `p` at the ideal instance: the fold of `max` over the row, from -∞. -/
theorem rowMax_apply {a b : ℕ} (src : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) :=
  (Ideal.multiReduction_maximumf_single src _ h hφ hacc (ix1 p)).trans
    (congrArg ((Finset.univ : Finset (Fin b)).fold max (Ideal.ofBits .f32 0xFF800000#32)) (funext fun k =>
      congrArg src (funext fun ax => Fin.ext (by
        match ax with
        | ⟨0, _⟩ => rfl
        | ⟨1, _⟩ => rfl))))

/-- Seven columns `[a, 1]` joined side by side into `[a, 7]`: entry `(p, k)` is column `k`'s entry of row `p`. -/
theorem concat7_apply {a : ℕ} (x0 x1 x2 x3 x4 x5 x6 : (⟨2, ![a, 1]⟩ : Shape).Idx → α)
    (h : Shape.Concatenates (([⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] : List ((s : Shape) × (s.Idx → α))).map (·.1)) ⟨2, ![a, 7]⟩ 1)
    (p : Fin a) (k : Fin 7) :
    concatenate ⟨2, ![a, 7]⟩ 1 [⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] h (ix2 p k) = (![x0, x1, x2, x3, x4, x5, x6] k) (ix2 p (0 : Fin 1)) := by
  have hi : ∀ (n : Fin 7) (b : Fin (⟨2, ![a, 1]⟩ : Shape).rank), b.cast (rfl : (2 : ℕ) = 2) ≠ (1 : Fin 2) →
      ((ix2 p (0 : Fin 1) : (⟨2, ![a, 1]⟩ : Shape).Idx) b).val = ((ix2 p n : (⟨2, ![a, 7]⟩ : Shape).Idx) (b.cast rfl)).val := by
    intro n b hb
    match b with
    | ⟨0, _⟩ => rfl
    | ⟨1, _⟩ => exact absurd rfl hb
  match k with
  | ⟨0, _⟩ => exact concatenate_apply_piece 1 _ h _ 0 (by simp) _ x0 rfl rfl 0 rfl (ix2 p (0 : Fin 1)) (hi 0) rfl
  | ⟨1, _⟩ => exact concatenate_apply_piece 1 _ h _ 1 (by simp) _ x1 rfl rfl 1 rfl (ix2 p (0 : Fin 1)) (hi 1) rfl
  | ⟨2, _⟩ => exact concatenate_apply_piece 1 _ h _ 2 (by simp) _ x2 rfl rfl 2 rfl (ix2 p (0 : Fin 1)) (hi 2) rfl
  | ⟨3, _⟩ => exact concatenate_apply_piece 1 _ h _ 3 (by simp) _ x3 rfl rfl 3 rfl (ix2 p (0 : Fin 1)) (hi 3) rfl
  | ⟨4, _⟩ => exact concatenate_apply_piece 1 _ h _ 4 (by simp) _ x4 rfl rfl 4 rfl (ix2 p (0 : Fin 1)) (hi 4) rfl
  | ⟨5, _⟩ => exact concatenate_apply_piece 1 _ h _ 5 (by simp) _ x5 rfl rfl 5 rfl (ix2 p (0 : Fin 1)) (hi 5) rfl
  | ⟨6, _⟩ => exact concatenate_apply_piece 1 _ h _ 6 (by simp) _ x6 rfl rfl 6 rfl (ix2 p (0 : Fin 1)) (hi 6) rfl

end Idealize.ShloMosaic.ColumnIdx

end
-- ==== Proof.BlockValue.lean ====
/-
  What each of the kernel's two bodies leaves in its output block, read at an index, over the extended reals.

  The edge body stores, at row `r` and lane `d` of its block of 4000 edges, the message of the edge whose three gathered
  rows are rows `r` of the three input blocks: four products of a row (or of the entrywise product of two rows) with the
  rows of a weight matrix, a bias, a rectification, a weighted lane sum, a logistic gate, and the gate times the entrywise
  product of the subject and relation rows (`EdgeMessage.msg`). The node body stores, at row `r` and column `o` of its
  block of 8000 nodes, the product of row `r` of the aggregated messages with row `o` of the output weight.

  Both bodies load whole buffers and store once through the whole output buffer, so the block after the body is the
  stored payload of the loaded buffers. Narrowing an operand to a shorter float format is the identity over the extended
  reals, and a product accumulated into the zero matrix is the plain sum over the contracted axis.
-/
import proofs.«175758_j82678120448825_2_alg».proof.Proof.Gen.KernelIdeal.Frame
import proofs.«175758_j82678120448825_2_alg».proof.Proof.EdgeMessage
import proofs.«175758_j82678120448825_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx

/-! ## The edge body's contraction: [4000, 128] against [64, 128] over the second axis of each -/

/-- The left operand's index of the edge contraction at output index `i` and contraction index `q`: its row is `i`'s
    row … -/
theorem edge_lhs_0 (i : S4000x64.Idx) (q : dot_S4000x128_S64x128_S4000x64_1_1_0_0_n_n.contr.Idx) :
    (dot_S4000x128_S64x128_S4000x64_1_1_0_0_n_n.lhsIdx i q 0).val = (i 0).val := by
  unfold DotDims.lhsIdx
  rw [dif_neg (show ¬(0 : Fin S4000x128.rank) ∈ dot_S4000x128_S64x128_S4000x64_1_1_0_0_n_n.lhsBatch by decide), dif_pos (show (0 : Fin S4000x128.rank) ∈ dot_S4000x128_S64x128_S4000x64_1_1_0_0_n_n.lhsNonContracting by decide)]
  rfl
/-- … and its column is the contraction coordinate. -/
theorem edge_lhs_1 (i : S4000x64.Idx) (q : dot_S4000x128_S64x128_S4000x64_1_1_0_0_n_n.contr.Idx) :
    (dot_S4000x128_S64x128_S4000x64_1_1_0_0_n_n.lhsIdx i q 1).val = (q ⟨0, by decide⟩).val :=
  dot_S4000x128_S64x128_S4000x64_1_1_0_0_n_n.lhsIdx_val_of_single rfl i q
/-- The right operand's index: its row is `i`'s column … -/
theorem edge_rhs_0 (i : S4000x64.Idx) (q : dot_S4000x128_S64x128_S4000x64_1_1_0_0_n_n.contr.Idx) :
    (dot_S4000x128_S64x128_S4000x64_1_1_0_0_n_n.rhsIdx i q 0).val = (i 1).val := by
  unfold DotDims.rhsIdx
  rw [dif_neg (show ¬(0 : Fin S64x128.rank) ∈ dot_S4000x128_S64x128_S4000x64_1_1_0_0_n_n.rhsBatch by decide), dif_pos (show (0 : Fin S64x128.rank) ∈ dot_S4000x128_S64x128_S4000x64_1_1_0_0_n_n.rhsNonContracting by decide)]
  rfl
/-- … and its column is the contraction coordinate. -/
theorem edge_rhs_1 (i : S4000x64.Idx) (q : dot_S4000x128_S64x128_S4000x64_1_1_0_0_n_n.contr.Idx) :
    (dot_S4000x128_S64x128_S4000x64_1_1_0_0_n_n.rhsIdx i q 1).val = (q ⟨0, by decide⟩).val :=
  dot_S4000x128_S64x128_S4000x64_1_1_0_0_n_n.rhsIdx_val_of_single rfl i q

/-- A product of narrowed operands into the zero accumulator, read at edge `r` and attention unit `a`: row `r` of the
    left operand against row `a` of the weight, summed over the 128 lanes. -/
theorem edge_product_apply (X : FVec Ideal S4000x128 .f32) (W : FVec Ideal S64x128 .f32) (r : Fin 4000) (a : Fin 64) :
    matmul dot_S4000x128_S64x128_S4000x64_1_1_0_0_n_n none (truncf .bf16 X bitsLt_bf16_f32) (truncf .bf16 W bitsLt_bf16_f32)
        (constant (F := Ideal) S4000x64 .f32 0x00000000#32) (ix2 r a)
      = ∑ k : Fin 128, X (ix2 r k) * W (ix2 a k) := by
  show FloatOps.matmul dot_S4000x128_S64x128_S4000x64_1_1_0_0_n_n none _ _ _ _ = _
  rw [Ideal.matmul_constant_zero_apply,
    ← Equiv.sum_comp (contrEquiv1 dot_S4000x128_S64x128_S4000x64_1_1_0_0_n_n 128 rfl rfl).symm]
  refine Finset.sum_congr rfl fun k _ => ?_
  have hk := contrEquiv1_symm_val dot_S4000x128_S64x128_S4000x64_1_1_0_0_n_n 128 rfl rfl k
  have el : dot_S4000x128_S64x128_S4000x64_1_1_0_0_n_n.lhsIdx (ix2 r a)
      ((contrEquiv1 dot_S4000x128_S64x128_S4000x64_1_1_0_0_n_n 128 rfl rfl).symm k) = ix2 r k :=
    funext fun ax => Fin.ext (by
      match ax with
      | ⟨0, _⟩ => exact edge_lhs_0 _ _
      | ⟨1, _⟩ => exact (edge_lhs_1 _ _).trans hk)
  have er : dot_S4000x128_S64x128_S4000x64_1_1_0_0_n_n.rhsIdx (ix2 r a)
      ((contrEquiv1 dot_S4000x128_S64x128_S4000x64_1_1_0_0_n_n 128 rfl rfl).symm k) = ix2 a k :=
    funext fun ax => Fin.ext (by
      match ax with
      | ⟨0, _⟩ => exact edge_rhs_0 _ _
      | ⟨1, _⟩ => exact (edge_rhs_1 _ _).trans hk)
  rw [el, er]
  rfl

/-! ## The edge body's stages at an index -/

/-- The bias `[64]` in one-row form `[1, 64]` repeated down the rows reads, at `(r, a)`, the bias at `a`. -/
theorem bias_apply (b : Vec Ideal S64 .f32) (r : Fin 4000) (a : Fin 64) :
    broadcastTo S4000x64 (shapeCast S1x64 b shapeCasts_S64_S1x64) broadcasts_S1x64_S4000x64 (ix2 r a) = b (ix1 a) :=
  (broadcastTo_1b_ab_apply _ _ r a).trans (shapeCast_a_1a_apply b _ 0 a)

/-- The weighted lane sum of edge `r`: over the 64 attention units, the rectified pre-activation times the unit's
    weight. The pre-activation's five terms are added in the order `EdgeMessage.pre` writes them. -/
theorem lane_apply (v0 v2 v4 : Vec Ideal S4000x128 .f32) (v11 v13 v15 v17 : Vec Ideal S64x128 .f32) (v20 : Vec Ideal S64 .f32)
    (v32 : Vec Ideal S1x64 .f32) (r : Fin 4000) :
    k0_pay4 (F := Ideal) v0 v2 v4 v11 v13 v15 v17 v20 v32 (ix1 r)
      = ∑ a : Fin 64, max (EdgeMessage.pre (fun k => v0 (ix2 r k)) (fun k => v2 (ix2 r k)) (fun k => v4 (ix2 r k))
            (fun a k => v11 (ix2 a k)) (fun a k => v13 (ix2 a k)) (fun a k => v15 (ix2 a k)) (fun a k => v17 (ix2 a k))
            (fun a => v20 (ix1 a)) a) (Ideal.ofBits .f32 0x00000000#32) * v32 (ix2 (0 : Fin 1) a) := by
  unfold k0_pay4 k0_pay2 k0_pay3
  refine (ColumnIdx.rowSum_apply (a := 4000) (b := 64) _ _ _ _ r).trans ?_
  refine Finset.sum_congr rfl fun a _ => ?_
  simp only [shapeCast_self]
  rw [mulf_apply, maximumf_apply, addf_apply, addf_apply, addf_apply, addf_apply, edge_product_apply, edge_product_apply,
    edge_product_apply, edge_product_apply, bias_apply, broadcastTo_1b_ab_apply, broadcast_apply]
  rfl

/-- The logistic operation on an array read at an index is the logistic function of the element. -/
theorem logistic_apply {s : Shape} (x : FVec Ideal s .f32) (i : s.Idx) : logistic x i = Ideal.logistic (x i) := rfl

/-- The stored value at edge `r`, lane `d`: the logistic function of the edge's lane sum plus the one-entry bias, times
    the product of the two rows at `d`. -/
theorem gate_apply (v1 v3 : FVec Ideal S4000x128 .f32) (v35 : FVec Ideal S4000 .f32) (v37 : Vec Ideal S1 .f32)
    (r : Fin 4000) (d : Fin 128) :
    k0_pay1 (F := Ideal) v1 v3 v35 v37 (ix2 r d)
      = Ideal.logistic (v35 (ix1 r) + v37 (ix1 (0 : Fin 1))) * (v1 (ix2 r d) * v3 (ix2 r d)) := by
  unfold k0_pay1
  refine (mulf_apply _ _ _).trans ?_
  rw [ColumnIdx.broadcastTo_a1_ab_apply, logistic_apply, addf_apply, ColumnIdx.shapeCast_a_a1_apply,
    broadcastTo_1b_ab_apply, shapeCast_a_1a_apply, mulf_apply]

/-! ## The blocks -/

/-- The zero offsets of a rank-2 access, as the constant function. -/
theorem hz2 : (![0, 0] : Fin 2 → Nat) = fun _ => 0 := funext fun a => by fin_cases a <;> rfl
/-- The zero offset of a rank-1 access, as the constant function. -/
theorem hz1 : (![0] : Fin 1 → Nat) = fun _ => 0 := funext fun a => by fin_cases a; rfl

/-- The edge body's output block at edge `r`, lane `d`: the message of the edge whose gathered rows are rows `r` of the
    three input blocks. -/
theorem edge_block_apply (x0 x1 x2 : Vec Ideal S4000x128 .f32) (x3 : Vec Ideal S64x128 .f32) (x4 : Vec Ideal S64 .f32) (x5 x6 x7 : Vec Ideal S64x128 .f32) (x8 : Vec Ideal S1x64 .f32) (x9 : Vec Ideal S1 .f32) (r : Fin 4000) (d : Fin 128) :
    out0_10 (F := Ideal) x0 x1 x2 x3 x4 x5 x6 x7 x8 x9 (ix2 r d)
      = EdgeMessage.msg (fun k => x0 (ix2 r k)) (fun k => x1 (ix2 r k)) (fun k => x2 (ix2 r k))
          (fun a k => x3 (ix2 a k)) (fun a k => x5 (ix2 a k)) (fun a k => x6 (ix2 a k)) (fun a k => x7 (ix2 a k)) (fun a => x4 (ix1 a)) (fun a => x8 (ix2 (0 : Fin 1) a)) (x9 (ix1 (0 : Fin 1))) d := by
  unfold out0_10
  rw [View.canon_unit_zero hz2]
  simp only [View.ld_unit_zero (S := S4000x128) hz2, View.ld_unit_zero (S := S64x128) hz2, View.ld_unit_zero (S := S1x64) hz2,
    View.ld_unit_zero (S := S64) hz1, View.ld_unit_zero (S := S1) hz1]
  rw [gate_apply, lane_apply]
  unfold k0_pay2 k0_pay3
  rw [shapeCast_self, shapeCast_self]
  rfl

/-! ## The node body's contraction: [8000, 128] against [128, 128] over the second axis of each -/

/-- The node contraction's left operand index at output index `i` and contraction index `q`: its row is `i`'s row … -/
theorem node_lhs_0 (i : S8000x128.Idx) (q : dot_S8000x128_S128x128_S8000x128_1_1_0_0_n_n.contr.Idx) :
    (dot_S8000x128_S128x128_S8000x128_1_1_0_0_n_n.lhsIdx i q 0).val = (i 0).val := by
  unfold DotDims.lhsIdx
  rw [dif_neg (show ¬(0 : Fin S8000x128.rank) ∈ dot_S8000x128_S128x128_S8000x128_1_1_0_0_n_n.lhsBatch by decide), dif_pos (show (0 : Fin S8000x128.rank) ∈ dot_S8000x128_S128x128_S8000x128_1_1_0_0_n_n.lhsNonContracting by decide)]
  rfl
/-- … and its column is the contraction coordinate. -/
theorem node_lhs_1 (i : S8000x128.Idx) (q : dot_S8000x128_S128x128_S8000x128_1_1_0_0_n_n.contr.Idx) :
    (dot_S8000x128_S128x128_S8000x128_1_1_0_0_n_n.lhsIdx i q 1).val = (q ⟨0, by decide⟩).val :=
  dot_S8000x128_S128x128_S8000x128_1_1_0_0_n_n.lhsIdx_val_of_single rfl i q
/-- The right operand's index: its row is `i`'s column … -/
theorem node_rhs_0 (i : S8000x128.Idx) (q : dot_S8000x128_S128x128_S8000x128_1_1_0_0_n_n.contr.Idx) :
    (dot_S8000x128_S128x128_S8000x128_1_1_0_0_n_n.rhsIdx i q 0).val = (i 1).val := by
  unfold DotDims.rhsIdx
  rw [dif_neg (show ¬(0 : Fin S128x128.rank) ∈ dot_S8000x128_S128x128_S8000x128_1_1_0_0_n_n.rhsBatch by decide), dif_pos (show (0 : Fin S128x128.rank) ∈ dot_S8000x128_S128x128_S8000x128_1_1_0_0_n_n.rhsNonContracting by decide)]
  rfl
/-- … and its column is the contraction coordinate. -/
theorem node_rhs_1 (i : S8000x128.Idx) (q : dot_S8000x128_S128x128_S8000x128_1_1_0_0_n_n.contr.Idx) :
    (dot_S8000x128_S128x128_S8000x128_1_1_0_0_n_n.rhsIdx i q 1).val = (q ⟨0, by decide⟩).val :=
  dot_S8000x128_S128x128_S8000x128_1_1_0_0_n_n.rhsIdx_val_of_single rfl i q

/-- The node update's product of narrowed operands into the zero accumulator, read at `(r, o)`: row `r` of the left
    operand against row `o` of the right one. -/
theorem node_product_apply (X : FVec Ideal S8000x128 .f32) (W : FVec Ideal S128x128 .f32) (r : Fin 8000) (o : Fin 128) :
    matmul dot_S8000x128_S128x128_S8000x128_1_1_0_0_n_n none (truncf .bf16 X bitsLt_bf16_f32) (truncf .bf16 W bitsLt_bf16_f32)
        (constant (F := Ideal) S8000x128 .f32 0x00000000#32) (ix2 r o)
      = ∑ k : Fin 128, X (ix2 r k) * W (ix2 o k) := by
  show FloatOps.matmul dot_S8000x128_S128x128_S8000x128_1_1_0_0_n_n none _ _ _ _ = _
  rw [Ideal.matmul_constant_zero_apply,
    ← Equiv.sum_comp (contrEquiv1 dot_S8000x128_S128x128_S8000x128_1_1_0_0_n_n 128 rfl rfl).symm]
  refine Finset.sum_congr rfl fun k _ => ?_
  have hk := contrEquiv1_symm_val dot_S8000x128_S128x128_S8000x128_1_1_0_0_n_n 128 rfl rfl k
  have el : dot_S8000x128_S128x128_S8000x128_1_1_0_0_n_n.lhsIdx (ix2 r o)
      ((contrEquiv1 dot_S8000x128_S128x128_S8000x128_1_1_0_0_n_n 128 rfl rfl).symm k) = ix2 r k :=
    funext fun ax => Fin.ext (by
      match ax with
      | ⟨0, _⟩ => exact node_lhs_0 _ _
      | ⟨1, _⟩ => exact (node_lhs_1 _ _).trans hk)
  have er : dot_S8000x128_S128x128_S8000x128_1_1_0_0_n_n.rhsIdx (ix2 r o)
      ((contrEquiv1 dot_S8000x128_S128x128_S8000x128_1_1_0_0_n_n 128 rfl rfl).symm k) = ix2 o k :=
    funext fun ax => Fin.ext (by
      match ax with
      | ⟨0, _⟩ => exact node_rhs_0 _ _
      | ⟨1, _⟩ => exact (node_rhs_1 _ _).trans hk)
  rw [el, er]
  rfl

/-- The node body's output block at node `r`, column `o`: row `r` of the aggregated messages against row `o` of the output
    weight, summed over the 128 lanes. -/
theorem node_block_apply (x0 : Vec Ideal S8000x128 .f32) (x1 : Vec Ideal S128x128 .f32) (r : Fin 8000) (o : Fin 128) :
    out1_2 (F := Ideal) x0 x1 (ix2 r o) = ∑ k : Fin 128, x0 (ix2 r k) * x1 (ix2 o k) := by
  unfold out1_2
  rw [View.canon_unit_zero hz2]
  simp only [View.ld_unit_zero (S := S8000x128) hz2, View.ld_unit_zero (S := S128x128) hz2]
  unfold k1_pay1
  rw [shapeCast_self]
  exact node_product_apply x0 x1 r o

end Cert.KernelIdeal.BlockValue

end
-- ==== Proof.EdgeRegion.lean ====
/-
  What the first launch leaves in its output array. The launch runs over 125 points; at point `t` the three edge windows
  hold rows `4000 t … 4000 t + 3999` of the three gathered arrays, every weight window holds its whole weight, and the body
  leaves in the output window the messages of those 4000 edges. So what point `t` writes back is block `t` of one array,
  the array of all edges' messages; the 125 blocks tile that array, so after the launch the output buffer holds it.
  Stated for any contents `V` the launch may find in the buffers.
-/
import proofs.«175758_j82678120448825_2_alg».proof.Proof.Gen.KernelIdeal.Frame
import proofs.«175758_j82678120448825_2_alg».proof.Proof.MessageArray
import proofs.«175758_j82678120448825_2_alg».proof.Proof.BlockValue
import Idealize.ShloMosaic.Lib.Pipeline.Value
import Idealize.ShloMosaic.Lib.ValueIdx

set_option maxRecDepth 16384

noncomputable section

namespace Cert.KernelIdeal.EdgeRegion

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

open Cert.KernelIdeal.BlockValue

/-- The printed index maps over the grid: the three edge windows and the output window sit at block `t` of their first
    axis, every weight window at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_10.index t (0 : Fin 2) = t.val ∧ win0_10.index t (1 : Fin 2) = 0 :=
  (by decide +kernel : ∀ t : Fin grid0.N, _)

theorem idx_facts_w : ∀ t : Fin cfg0.N,
    win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 1) = 0 :=
  (by decide +kernel : ∀ t : Fin grid0.N, _)

/-- Row `r` of the block of gathered subject rows at point `t` is row `4000 t + r` of the gathered array. -/
theorem iblk_0_apply (c : Dev nD) (t : Fin cfg0.N) (r : Fin 4000) (k : Fin 128) (e : Fin 500000) (he : e.val = 4000 * t.val + r.val) :
    (iblk0 V c 0 t : Vec Ideal S4000x128 .f32) (ix2 r k) = (V c main_v6 : S500000x128.Idx → Elt Ideal .f32) (ix2 e k) := by
  obtain ⟨h0, h1, -⟩ := idx_facts t
  unfold iblk0
  rw [View.read_apply]
  show V c main_v6 _ = V c main_v6 _
  congr 1
  funext a
  apply Fin.ext
  match a with
  | ⟨0, _⟩ => show win0_0.index t 0 * 4000 + 1 * r.val = e.val; rw [h0, he]; omega
  | ⟨1, _⟩ => show win0_0.index t 1 * 128 + 1 * k.val = k.val; rw [h1]; omega

/-- The same for the gathered relation rows. -/
theorem iblk_1_apply (c : Dev nD) (t : Fin cfg0.N) (r : Fin 4000) (k : Fin 128) (e : Fin 500000) (he : e.val = 4000 * t.val + r.val) :
    (iblk0 V c 1 t : Vec Ideal S4000x128 .f32) (ix2 r k) = (V c main_v13 : S500000x128.Idx → Elt Ideal .f32) (ix2 e k) := by
  obtain ⟨-, -, h0, h1, -⟩ := idx_facts t
  unfold iblk0
  rw [View.read_apply]
  show V c main_v13 _ = V c main_v13 _
  congr 1
  funext a
  apply Fin.ext
  match a with
  | ⟨0, _⟩ => show win0_1.index t 0 * 4000 + 1 * r.val = e.val; rw [h0, he]; omega
  | ⟨1, _⟩ => show win0_1.index t 1 * 128 + 1 * k.val = k.val; rw [h1]; omega

/-- The same for the gathered query rows. -/
theorem iblk_2_apply (c : Dev nD) (t : Fin cfg0.N) (r : Fin 4000) (k : Fin 128) (e : Fin 500000) (he : e.val = 4000 * t.val + r.val) :
    (iblk0 V c 2 t : Vec Ideal S4000x128 .f32) (ix2 r k) = (V c main_v20 : S500000x128.Idx → Elt Ideal .f32) (ix2 e k) := by
  obtain ⟨-, -, -, -, h0, h1, -⟩ := idx_facts t
  unfold iblk0
  rw [View.read_apply]
  show V c main_v20 _ = V c main_v20 _
  congr 1
  funext a
  apply Fin.ext
  match a with
  | ⟨0, _⟩ => show win0_2.index t 0 * 4000 + 1 * r.val = e.val; rw [h0, he]; omega
  | ⟨1, _⟩ => show win0_2.index t 1 * 128 + 1 * k.val = k.val; rw [h1]; omega

/-- A weight window's one block is the whole weight array, at every point. -/
theorem iblk_3_eq (c : Dev nD) (t : Fin cfg0.N) : (iblk0 V c 3 t : Vec Ideal S64x128 .f32) = (V c main_arg3 : S64x128.Idx → Elt Ideal .f32) := by
  obtain ⟨h0, h1, -⟩ := idx_facts_w t
  funext y
  unfold iblk0
  rw [View.read_apply]
  show V c main_arg3 _ = V c main_arg3 _
  congr 1
  funext a
  apply Fin.ext
  match a with
  | ⟨0, _⟩ => show win0_3.index t 0 * 64 + 1 * (y 0).val = (y 0).val; rw [h0]; omega
  | ⟨1, _⟩ => show win0_3.index t 1 * 128 + 1 * (y 1).val = (y 1).val; rw [h1]; omega

theorem iblk_4_eq (c : Dev nD) (t : Fin cfg0.N) : (iblk0 V c 4 t : Vec Ideal S64 .f32) = (V c main_arg4 : S64.Idx → Elt Ideal .f32) := by
  obtain ⟨-, -, h0, -⟩ := idx_facts_w t
  funext y
  unfold iblk0
  rw [View.read_apply]
  show V c main_arg4 _ = V c main_arg4 _
  congr 1
  funext a
  apply Fin.ext
  match a with
  | ⟨0, _⟩ => show win0_4.index t 0 * 64 + 1 * (y 0).val = (y 0).val; rw [h0]; omega

theorem iblk_5_eq (c : Dev nD) (t : Fin cfg0.N) : (iblk0 V c 5 t : Vec Ideal S64x128 .f32) = (V c main_arg5 : S64x128.Idx → Elt Ideal .f32) := by
  obtain ⟨-, -, -, h0, h1, -⟩ := idx_facts_w t
  funext y
  unfold iblk0
  rw [View.read_apply]
  show V c main_arg5 _ = V c main_arg5 _
  congr 1
  funext a
  apply Fin.ext
  match a with
  | ⟨0, _⟩ => show win0_5.index t 0 * 64 + 1 * (y 0).val = (y 0).val; rw [h0]; omega
  | ⟨1, _⟩ => show win0_5.index t 1 * 128 + 1 * (y 1).val = (y 1).val; rw [h1]; omega

theorem iblk_6_eq (c : Dev nD) (t : Fin cfg0.N) : (iblk0 V c 6 t : Vec Ideal S64x128 .f32) = (V c main_arg6 : S64x128.Idx → Elt Ideal .f32) := by
  obtain ⟨-, -, -, -, -, h0, h1, -⟩ := idx_facts_w t
  funext y
  unfold iblk0
  rw [View.read_apply]
  show V c main_arg6 _ = V c main_arg6 _
  congr 1
  funext a
  apply Fin.ext
  match a with
  | ⟨0, _⟩ => show win0_6.index t 0 * 64 + 1 * (y 0).val = (y 0).val; rw [h0]; omega
  | ⟨1, _⟩ => show win0_6.index t 1 * 128 + 1 * (y 1).val = (y 1).val; rw [h1]; omega

theorem iblk_7_eq (c : Dev nD) (t : Fin cfg0.N) : (iblk0 V c 7 t : Vec Ideal S64x128 .f32) = (V c main_arg7 : S64x128.Idx → Elt Ideal .f32) := by
  obtain ⟨-, -, -, -, -, -, -, h0, h1, -⟩ := idx_facts_w t
  funext y
  unfold iblk0
  rw [View.read_apply]
  show V c main_arg7 _ = V c main_arg7 _
  congr 1
  funext a
  apply Fin.ext
  match a with
  | ⟨0, _⟩ => show win0_7.index t 0 * 64 + 1 * (y 0).val = (y 0).val; rw [h0]; omega
  | ⟨1, _⟩ => show win0_7.index t 1 * 128 + 1 * (y 1).val = (y 1).val; rw [h1]; omega

theorem iblk_8_eq (c : Dev nD) (t : Fin cfg0.N) : (iblk0 V c 8 t : Vec Ideal S1x64 .f32) = (V c main_arg8 : S1x64.Idx → Elt Ideal .f32) := by
  obtain ⟨-, -, -, -, -, -, -, -, -, h0, h1, -⟩ := idx_facts_w t
  funext y
  unfold iblk0
  rw [View.read_apply]
  show V c main_arg8 _ = V c main_arg8 _
  congr 1
  funext a
  apply Fin.ext
  match a with
  | ⟨0, _⟩ => show win0_8.index t 0 * 1 + 1 * (y 0).val = (y 0).val; rw [h0]; omega
  | ⟨1, _⟩ => show win0_8.index t 1 * 64 + 1 * (y 1).val = (y 1).val; rw [h1]; omega

theorem iblk_9_eq (c : Dev nD) (t : Fin cfg0.N) : (iblk0 V c 9 t : Vec Ideal S1 .f32) = (V c main_arg9 : S1.Idx → Elt Ideal .f32) := by
  obtain ⟨-, -, -, -, -, -, -, -, -, -, -, h0⟩ := idx_facts_w t
  funext y
  unfold iblk0
  rw [View.read_apply]
  show V c main_arg9 _ = V c main_arg9 _
  congr 1
  funext a
  apply Fin.ext
  match a with
  | ⟨0, _⟩ => show win0_9.index t 0 * 1 + 1 * (y 0).val = (y 0).val; rw [h0]; omega

/-- The message array the first launch leaves: every edge's message, from the gathered arrays and the weights as the
    launch finds them. -/
abbrev messages (c : Dev nD) : S500000x128.Idx → Elt Ideal .f32 :=
  EdgeMessage.ofArrays (V c main_v6) (V c main_v13) (V c main_v20) (V c main_arg3) (V c main_arg5) (V c main_arg6) (V c main_arg7)
    (V c main_arg4) (V c main_arg8) (V c main_arg9)

/-- What point `t` writes back is block `t` of the message array. -/
theorem flushed_eq (c : Dev nD) (t : Fin cfg0.N) :
    (dat0 V c).flushed 10 t = ((cfg0.win 10).blk t).view.read (Elt Ideal) (messages V c) := by
  show (cfg0.win 10).cut (grid0.coords t) ((dat0 V c).after 10 t) = _
  rw [after0_10, iblk_3_eq, iblk_4_eq, iblk_5_eq, iblk_6_eq, iblk_7_eq, iblk_8_eq, iblk_9_eq]
  obtain ⟨-, -, -, -, -, -, h0, h1⟩ := idx_facts t
  have hN : cfg0.N = 125 := N_0
  funext y
  obtain ⟨r, d, rfl⟩ : ∃ (r : Fin 4000) (d : Fin 128), y = ix2 r d := ⟨y 0, y 1, eq_ix2 y⟩
  have hlt : 4000 * t.val + r.val < 500000 := by have := t.isLt; have := r.isLt; omega
  have hemb : ((cfg0.win 10).blk t).view.emb (ix2 r d) = (ix2 (⟨4000 * t.val + r.val, hlt⟩ : Fin 500000) d : S500000x128.Idx) := by
    funext a
    apply Fin.ext
    match a with
    | ⟨0, _⟩ => show win0_10.index t 0 * 4000 + 1 * r.val = 4000 * t.val + r.val; rw [h0]; omega
    | ⟨1, _⟩ => show win0_10.index t 1 * 128 + 1 * d.val = d.val; rw [h1]; omega
  show out0_10 _ _ _ _ _ _ _ _ _ _ (ix2 r d) = messages V c (((cfg0.win 10).blk t).view.emb (ix2 r d))
  rw [hemb, edge_block_apply]
  refine Eq.trans ?_ (EdgeMessage.ofArrays_apply _ _ _ _ _ _ _ _ _ _ _ _).symm
  simp only [fun k => iblk_0_apply V c t r k ⟨4000 * t.val + r.val, hlt⟩ rfl, fun k => iblk_1_apply V c t r k ⟨4000 * t.val + r.val, hlt⟩ rfl,
    fun k => iblk_2_apply V c t r k ⟨4000 * t.val + r.val, hlt⟩ rfl]

/-- An index of the message array is in point `t`'s block iff each coordinate is in the block's range on its axis. -/
theorem mem_blk (t : Fin cfg0.N) (i : S500000x128.Idx) :
    i ∈ ((cfg0.win 10).blk t).view.set ↔ ∀ a : Fin 2, win0_10.index t a * S4000x128.size a ≤ (i a).val ∧ (i a).val < win0_10.index t a * S4000x128.size a + S4000x128.size a := by
  show i ∈ ((View.whole main_v21).slice (win0_10.rect t)).set ↔ _
  rw [View.set_slice_whole, Rect.mem_set_unit]
  exact Iff.rfl

/-- Every row of the message array is in some point's block: row `e` in point `e / 4000`'s. -/
theorem cover (i : S500000x128.Idx) : ∃ t : Fin cfg0.N, (cfg0.win 10).flush t = true ∧ i ∈ ((cfg0.win 10).blk t).view.set := by
  have hi0 : (i 0).val < 500000 := (i 0).isLt
  have hi1 : (i 1).val < 128 := (i 1).isLt
  have hN : cfg0.N = 125 := N_0
  let t : Fin cfg0.N := ⟨(i 0).val / 4000, by rw [hN]; omega⟩
  obtain ⟨-, -, -, -, -, -, h0, h1⟩ := idx_facts t
  refine ⟨t, flush0_10 t, ?_⟩
  rw [mem_blk]
  intro a
  match a with
  | ⟨0, _⟩ =>
    show win0_10.index t (0 : Fin 2) * 4000 ≤ (i 0).val ∧ (i 0).val < win0_10.index t (0 : Fin 2) * 4000 + 4000
    rw [h0]; show (i 0).val / 4000 * 4000 ≤ (i 0).val ∧ (i 0).val < (i 0).val / 4000 * 4000 + 4000; omega
  | ⟨1, _⟩ =>
    show win0_10.index t (1 : Fin 2) * 128 ≤ (i 1).val ∧ (i 1).val < win0_10.index t (1 : Fin 2) * 128 + 128
    rw [h1]; omega

/-- So the first launch leaves the message array in its output buffer. -/
theorem final (c : Dev nD) : (dat0 V c).arrAt 10 cfg0.N = messages V c :=
  (dat0 V c).arrAt_eq_of_cover 10 (messages V c) (fun t _ => flushed_eq V c t) cover

end Cert.KernelIdeal.EdgeRegion

end
-- ==== Proof.NodeRegion.lean ====
/-
  What the second launch leaves in its output array. The launch runs over 25 points; at point `t` the aggregate window
  holds rows `8000 t … 8000 t + 7999` of the aggregated messages, the weight window holds the whole output weight, and the
  body leaves in the output window those rows times the transposed weight. So what point `t` writes back is block `t` of
  the updated node array; the 25 blocks tile it, so after the launch the output buffer holds it. Stated for any contents
  `V` the launch may find in the buffers.
-/
import proofs.«175758_j82678120448825_2_alg».proof.Proof.Gen.KernelIdeal.Frame
import proofs.«175758_j82678120448825_2_alg».proof.Proof.MessageArray
import proofs.«175758_j82678120448825_2_alg».proof.Proof.BlockValue
import Idealize.ShloMosaic.Lib.Pipeline.Value
import Idealize.ShloMosaic.Lib.ValueIdx

set_option maxRecDepth 16384

noncomputable section

namespace Cert.KernelIdeal.NodeRegion

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

open Cert.KernelIdeal.BlockValue

/-- The printed index maps over the grid: the aggregate window and the output window sit at block `t` of their first
    axis, the weight window at block 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `r` of the block of aggregated messages at point `t` is row `8000 t + r` of the aggregate array. -/
theorem iblk_0_apply (c : Dev nD) (t : Fin cfg1.N) (r : Fin 8000) (k : Fin 128) (v : Fin 200000) (hv : v.val = 8000 * t.val + r.val) :
    (iblk1 V c 0 t : Vec Ideal S8000x128 .f32) (ix2 r k) = (V c main_v24 : S200000x128.Idx → Elt Ideal .f32) (ix2 v k) := by
  obtain ⟨h0, h1, -⟩ := idx_facts t
  unfold iblk1
  rw [View.read_apply]
  show V c main_v24 _ = V c main_v24 _
  congr 1
  funext a
  apply Fin.ext
  match a with
  | ⟨0, _⟩ => show win1_0.index t 0 * 8000 + 1 * r.val = v.val; rw [h0, hv]; omega
  | ⟨1, _⟩ => show win1_0.index t 1 * 128 + 1 * k.val = k.val; rw [h1]; omega

/-- The weight window's one block is the whole output weight, at every point. -/
theorem iblk_1_eq (c : Dev nD) (t : Fin cfg1.N) : (iblk1 V c 1 t : Vec Ideal S128x128 .f32) = (V c main_arg10 : S128x128.Idx → Elt Ideal .f32) := by
  obtain ⟨-, -, h0, h1, -⟩ := idx_facts t
  funext y
  unfold iblk1
  rw [View.read_apply]
  show V c main_arg10 _ = V c main_arg10 _
  congr 1
  funext a
  apply Fin.ext
  match a with
  | ⟨0, _⟩ => show win1_1.index t 0 * 128 + 1 * (y 0).val = (y 0).val; rw [h0]; omega
  | ⟨1, _⟩ => show win1_1.index t 1 * 128 + 1 * (y 1).val = (y 1).val; rw [h1]; omega

/-- The updated node array the second launch leaves, from the aggregate and the weight as the launch finds them. -/
abbrev updated (c : Dev nD) : S200000x128.Idx → Elt Ideal .f32 :=
  EdgeMessage.update (V c main_v24) (V c main_arg10)

/-- What point `t` writes back is block `t` of the updated node array. -/
theorem flushed_eq (c : Dev nD) (t : Fin cfg1.N) :
    (dat1 V c).flushed 2 t = ((cfg1.win 2).blk t).view.read (Elt Ideal) (updated V c) := by
  show (cfg1.win 2).cut (grid1.coords t) ((dat1 V c).after 2 t) = _
  rw [after1_2, iblk_1_eq]
  obtain ⟨-, -, -, -, h0, h1⟩ := idx_facts t
  have hN : cfg1.N = 25 := N_1
  funext y
  obtain ⟨r, o, rfl⟩ : ∃ (r : Fin 8000) (o : Fin 128), y = ix2 r o := ⟨y 0, y 1, eq_ix2 y⟩
  have hlt : 8000 * t.val + r.val < 200000 := by have := t.isLt; have := r.isLt; omega
  have hemb : ((cfg1.win 2).blk t).view.emb (ix2 r o) = (ix2 (⟨8000 * t.val + r.val, hlt⟩ : Fin 200000) o : S200000x128.Idx) := by
    funext a
    apply Fin.ext
    match a with
    | ⟨0, _⟩ => show win1_2.index t 0 * 8000 + 1 * r.val = 8000 * t.val + r.val; rw [h0]; omega
    | ⟨1, _⟩ => show win1_2.index t 1 * 128 + 1 * o.val = o.val; rw [h1]; omega
  show out1_2 _ _ (ix2 r o) = updated V c (((cfg1.win 2).blk t).view.emb (ix2 r o))
  rw [hemb, node_block_apply]
  refine Eq.trans ?_ (EdgeMessage.update_apply _ _ _ _).symm
  simp only [fun k => iblk_0_apply V c t r k ⟨8000 * t.val + r.val, hlt⟩ rfl]

/-- An index of the node array is in point `t`'s block iff each coordinate is in the block's range on its axis. -/
theorem mem_blk (t : Fin cfg1.N) (i : S200000x128.Idx) :
    i ∈ ((cfg1.win 2).blk t).view.set ↔ ∀ a : Fin 2, win1_2.index t a * S8000x128.size a ≤ (i a).val ∧ (i a).val < win1_2.index t a * S8000x128.size a + S8000x128.size a := by
  show i ∈ ((View.whole main_v25).slice (win1_2.rect t)).set ↔ _
  rw [View.set_slice_whole, Rect.mem_set_unit]
  exact Iff.rfl

/-- Every row of the node array is in some point's block: row `v` in point `v / 8000`'s. -/
theorem cover (i : S200000x128.Idx) : ∃ t : Fin cfg1.N, (cfg1.win 2).flush t = true ∧ i ∈ ((cfg1.win 2).blk t).view.set := by
  have hi0 : (i 0).val < 200000 := (i 0).isLt
  have hi1 : (i 1).val < 128 := (i 1).isLt
  have hN : cfg1.N = 25 := N_1
  let t : Fin cfg1.N := ⟨(i 0).val / 8000, by rw [hN]; omega⟩
  obtain ⟨-, -, -, -, h0, h1⟩ := idx_facts t
  refine ⟨t, flush1_2 t, ?_⟩
  rw [mem_blk]
  intro a
  match a with
  | ⟨0, _⟩ =>
    show win1_2.index t (0 : Fin 2) * 8000 ≤ (i 0).val ∧ (i 0).val < win1_2.index t (0 : Fin 2) * 8000 + 8000
    rw [h0]; show (i 0).val / 8000 * 8000 ≤ (i 0).val ∧ (i 0).val < (i 0).val / 8000 * 8000 + 8000; omega
  | ⟨1, _⟩ =>
    show win1_2.index t (1 : Fin 2) * 128 ≤ (i 1).val ∧ (i 1).val < win1_2.index t (1 : Fin 2) * 128 + 128
    rw [h1]; omega

/-- So the second launch leaves the updated node array in its output buffer. -/
theorem final (c : Dev nD) : (dat1 V c).arrAt 2 cfg1.N = updated V c :=
  (dat1 V c).arrAt_eq_of_cover 2 (updated V c) (fun t _ => flushed_eq V c t) cover

end Cert.KernelIdeal.NodeRegion

end
-- ==== Proof.KernelValue.lean ====
/-
  The kernel program's result as one function of its arguments, over the extended reals: the three row gathers, the
  message of every edge, the messages added into a zero array at their target nodes, and the node update.
-/
import proofs.«175758_j82678120448825_2_alg».proof.Proof.KernelRun
import proofs.«175758_j82678120448825_2_alg».proof.Proof.Boundaries
import proofs.«175758_j82678120448825_2_alg».proof.Proof.EdgeRegion
import proofs.«175758_j82678120448825_2_alg».proof.Proof.NodeRegion

noncomputable section

namespace Cert.KernelIdeal.KernelValue

open Cert.KernelIdeal Cert.KernelIdeal.Gen Cert.KernelIdeal.Boundaries
open Idealize.ShloMosaic Idealize.ShloMosaic.TcCoe Idealize.SL.Sem

variable (m : (ℓ : Loc nD τ sig) → Buf (Elt Ideal) ℓ) (ρ : Dev nD → PrngReg)

/-- Every edge's message, from the argument arrays. -/
def messages (c : Dev nD) : FVec Ideal S500000x128 .f32 :=
  EdgeMessage.ofArrays
    (Host.gather gather_S200000x128_S500000x1_S500000x128_1_0_n_n_0_1_1128 (m ((c : Thread nD τ).loc main_arg0))
      (startCol 200000#32 (m ((c : Thread nD τ).loc main_arg13))))
    (Host.gather gather_S401x128_S500000x1_S500000x128_1_0_n_n_0_1_1128 (m ((c : Thread nD τ).loc main_arg2))
      (startCol 401#32 (m ((c : Thread nD τ).loc main_arg12))))
    (Host.gather gather_S100x128_S500000x1_S500000x128_1_0_n_n_0_1_1128 (m ((c : Thread nD τ).loc main_arg1))
      (startCol 100#32 (m ((c : Thread nD τ).loc main_arg11))))
    (m ((c : Thread nD τ).loc main_arg3)) (m ((c : Thread nD τ).loc main_arg5)) (m ((c : Thread nD τ).loc main_arg6))
    (m ((c : Thread nD τ).loc main_arg7)) (m ((c : Thread nD τ).loc main_arg4)) (m ((c : Thread nD τ).loc main_arg8))
    (m ((c : Thread nD τ).loc main_arg9))

/-- The messages added into a zero array at the rows the target-node indices name. -/
def aggregate (c : Dev nD) : FVec Ideal S200000x128 .f32 :=
  Host.scatterAdd (F := Ideal) scatter_S200000x128_S500000x1_S500000x128_1_0_0_1
    (broadcastInDim S200000x128 ![] bcast_S_S200000x128 (constant (F := Ideal) S_ .f32 0x00000000#32))
    (broadcastInDim S500000x1 ![0] bcast_S500000_S500000x1_0 (m ((c : Thread nD τ).loc main_arg14)))
    (messages m c)

/-- The program's result: the aggregate times the transposed output weight. -/
def result (c : Dev nD) : Buf (Elt Ideal) ((c.tc : Thread nD τ).loc main_v25) :=
  EdgeMessage.update (aggregate m c) (m ((c : Thread nD τ).loc main_arg10))

/-- The first launch leaves every edge's message. -/
theorem messages_eq (c : Dev nD) : (dat0 (V1 m ρ) c).arrAt 10 cfg0.N = messages m c := by
  rw [EdgeRegion.final (V1 m ρ) c]
  unfold messages
  show EdgeMessage.ofArrays (V1 m ρ c main_v6) (V1 m ρ c main_v13) (V1 m ρ c main_v20) (V1 m ρ c main_arg3) (V1 m ρ c main_arg5)
    (V1 m ρ c main_arg6) (V1 m ρ c main_arg7) (V1 m ρ c main_arg4) (V1 m ρ c main_arg8) (V1 m ρ c main_arg9) = _
  rw [entry_v6, entry_v13, entry_v20, entry_arg3, entry_arg4, entry_arg5, entry_arg6, entry_arg7, entry_arg8, entry_arg9]

/-- The result buffer ends at the result. -/
theorem result_eq (c : Dev nD) : W4 m ρ c (Proc.devRef .tc main_v25) = result m c := by
  rw [result_buffer, NodeRegion.final (V3 m ρ) c]
  unfold result aggregate
  show EdgeMessage.update (V3 m ρ c main_v24) (V3 m ρ c main_arg10) = _
  rw [entry_v24, entry_arg10, messages_eq]

/-- Every weakly fair execution of the kernel program terminates without a fault, with the result buffer at the result
    and the argument arrays as launched. -/
theorem run : θ_run defs (onTc (τ := τ) (main (F := Ideal))) ⟨m, fun _ => 0, ρ⟩ (fun r => ∀ c : Dev nD,
      r.2.mem ((c.tc : Thread nD τ).loc main_v25) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (result_eq m ρ c), (h c).2⟩) (RunValue.run_named m ρ)

end Cert.KernelIdeal.KernelValue

end
-- ==== Proof.RefMessage.lean ====
/-
  The reference's message and its result, read at an index over the extended reals.

  Entry `(e, d)` of the reference's message array is the edge message of `EdgeMessage.msg` for the three rows gathered
  for edge `e`: each of the four products of a gathered row with a weight matrix, read at `(e, a)`, is the sum over the
  contracted coordinate; the bias is broadcast along the edges; the rectified pre-activations are contracted with the
  transposed attention weight; the logistic function is spelled `1 / (1 + exp (-s))`; and the gate is broadcast along
  the message's entries. Entry `(n, o)` of the result is the sum over `k` of the aggregated messages at `(n, k)` times
  the output weight at `(o, k)`. The three gathers and the scatter stay opaque.
-/
import proofs.«175758_j82678120448825_2_alg».proof.Proof.Gen.ReferenceIdeal.Read
import proofs.«175758_j82678120448825_2_alg».proof.Proof.EdgeMessage
import Idealize.ShloMosaic.Lib.IdealHost

noncomputable section

namespace Cert.ReferenceIdeal.RefValue

open Cert.ReferenceIdeal Cert.ReferenceIdeal.Read Idealize.ShloMosaic Idealize.ShloMosaic.ValueIdx

section stages

variable (x0 : (⟨S200000x128, .f32⟩ : BufTy).Contents (Elt Ideal)) (x1 : (⟨S100x128, .f32⟩ : BufTy).Contents (Elt Ideal))
  (x2 : (⟨S401x128, .f32⟩ : BufTy).Contents (Elt Ideal)) (x3 : (⟨S64x128, .f32⟩ : BufTy).Contents (Elt Ideal))
  (x4 : (⟨S64, .f32⟩ : BufTy).Contents (Elt Ideal)) (x5 x6 x7 : (⟨S64x128, .f32⟩ : BufTy).Contents (Elt Ideal))
  (x8 : (⟨S1x64, .f32⟩ : BufTy).Contents (Elt Ideal)) (x9 : (⟨S1, .f32⟩ : BufTy).Contents (Elt Ideal))
  (x11 x12 x13 : (⟨S500000, .i32⟩ : BufTy).Contents (Elt Ideal))

/-! ### The four products with a weight matrix, at `(e, a)` -/

theorem dot_v21 (e : Fin 500000) (a : Fin 64) :
    val_main_v21 (F := Ideal) x0 x3 x13 (ix2 e a) = ∑ k : Fin 128, val_main_v6 (F := Ideal) x0 x13 (ix2 e k) * x3 (ix2 a k) := by
  rw [val_main_v21_apply]
  refine Finset.sum_congr rfl fun k _ => ?_
  rw [show lidx_main_v21 (ix2 e a) k = ix2 e k from funext fun c => match c with | ⟨0, _⟩ => rfl | ⟨1, _⟩ => rfl,
    show ridx_main_v21 (ix2 e a) k = ix2 a k from funext fun c => match c with | ⟨0, _⟩ => rfl | ⟨1, _⟩ => rfl]

theorem dot_v25 (e : Fin 500000) (a : Fin 64) :
    val_main_v25 (F := Ideal) x2 x5 x12 (ix2 e a) = ∑ k : Fin 128, val_main_v13 (F := Ideal) x2 x12 (ix2 e k) * x5 (ix2 a k) := by
  rw [val_main_v25_apply]
  refine Finset.sum_congr rfl fun k _ => ?_
  rw [show lidx_main_v25 (ix2 e a) k = ix2 e k from funext fun c => match c with | ⟨0, _⟩ => rfl | ⟨1, _⟩ => rfl,
    show ridx_main_v25 (ix2 e a) k = ix2 a k from funext fun c => match c with | ⟨0, _⟩ => rfl | ⟨1, _⟩ => rfl]

theorem dot_v27 (e : Fin 500000) (a : Fin 64) :
    val_main_v27 (F := Ideal) x1 x6 x11 (ix2 e a) = ∑ k : Fin 128, val_main_v20 (F := Ideal) x1 x11 (ix2 e k) * x6 (ix2 a k) := by
  rw [val_main_v27_apply]
  refine Finset.sum_congr rfl fun k _ => ?_
  rw [show lidx_main_v27 (ix2 e a) k = ix2 e k from funext fun c => match c with | ⟨0, _⟩ => rfl | ⟨1, _⟩ => rfl,
    show ridx_main_v27 (ix2 e a) k = ix2 a k from funext fun c => match c with | ⟨0, _⟩ => rfl | ⟨1, _⟩ => rfl]

/-- The fourth product's left operand is the entrywise product of the relation row and the query row. -/
theorem dot_v30 (e : Fin 500000) (a : Fin 64) :
    val_main_v30 (F := Ideal) x1 x2 x7 x11 x12 (ix2 e a)
      = ∑ k : Fin 128, val_main_v13 (F := Ideal) x2 x12 (ix2 e k) * val_main_v20 (F := Ideal) x1 x11 (ix2 e k) * x7 (ix2 a k) := by
  rw [val_main_v30_apply]
  refine Finset.sum_congr rfl fun k _ => ?_
  rw [show lidx_main_v30 (ix2 e a) k = ix2 e k from funext fun c => match c with | ⟨0, _⟩ => rfl | ⟨1, _⟩ => rfl,
    show ridx_main_v30 (ix2 e a) k = ix2 a k from funext fun c => match c with | ⟨0, _⟩ => rfl | ⟨1, _⟩ => rfl,
    val_main_v29_apply, Ideal.mulf_def]

/-- The bias, broadcast along the edges, at `(e, a)`. -/
theorem bias_v23 (e : Fin 500000) (a : Fin 64) : val_main_v23 (F := Ideal) x4 (ix2 e a) = x4 (ix1 a) := by
  rw [val_main_v23_apply, val_main_v22_apply]
  exact congrArg x4 (funext fun c => match c with | ⟨0, _⟩ => rfl)

/-- The pre-activation of attention unit `a` for edge `e`. -/
theorem pre_apply (e : Fin 500000) (a : Fin 64) :
    val_main_v31 (F := Ideal) x0 x1 x2 x3 x4 x5 x6 x7 x11 x12 x13 (ix2 e a)
      = EdgeMessage.pre (fun k => val_main_v6 (F := Ideal) x0 x13 (ix2 e k)) (fun k => val_main_v13 (F := Ideal) x2 x12 (ix2 e k)) (fun k => val_main_v20 (F := Ideal) x1 x11 (ix2 e k))
          (fun a k => x3 (ix2 a k)) (fun a k => x5 (ix2 a k)) (fun a k => x6 (ix2 a k)) (fun a k => x7 (ix2 a k)) (fun a => x4 (ix1 a)) a := by
  rw [val_main_v31_apply, val_main_v28_apply, val_main_v26_apply, val_main_v24_apply, dot_v21, dot_v25, dot_v27, dot_v30,
    bias_v23]
  simp only [EdgeMessage.pre, Ideal.addf_def]

/-- The rectified pre-activation: the maximum with the broadcast zero word. -/
theorem relu_apply (e : Fin 500000) (a : Fin 64) :
    val_main_v32 (F := Ideal) x0 x1 x2 x3 x4 x5 x6 x7 x11 x12 x13 (ix2 e a)
      = max (EdgeMessage.pre (fun k => val_main_v6 (F := Ideal) x0 x13 (ix2 e k)) (fun k => val_main_v13 (F := Ideal) x2 x12 (ix2 e k)) (fun k => val_main_v20 (F := Ideal) x1 x11 (ix2 e k))
          (fun a k => x3 (ix2 a k)) (fun a k => x5 (ix2 a k)) (fun a k => x6 (ix2 a k)) (fun a k => x7 (ix2 a k)) (fun a => x4 (ix1 a)) a) (Ideal.ofBits .f32 0x00000000#32) := by
  rw [val_main_v32_apply, pre_apply, val_main_call0_v0_apply, val_main_call0_cst_apply, Ideal.maximumf_def, Ideal.ofBits_def]

/-- The gate's argument for edge `e`: the rectified pre-activations weighted by the attention weight, plus its bias. -/
theorem logit_apply (e : Fin 500000) :
    val_main_v37 (F := Ideal) x0 x1 x2 x3 x4 x5 x6 x7 x8 x9 x11 x12 x13 (ix2 e (0 : Fin 1))
      = (∑ a : Fin 64, max (EdgeMessage.pre (fun k => val_main_v6 (F := Ideal) x0 x13 (ix2 e k)) (fun k => val_main_v13 (F := Ideal) x2 x12 (ix2 e k)) (fun k => val_main_v20 (F := Ideal) x1 x11 (ix2 e k))
          (fun a k => x3 (ix2 a k)) (fun a k => x5 (ix2 a k)) (fun a k => x6 (ix2 a k)) (fun a k => x7 (ix2 a k)) (fun a => x4 (ix1 a)) a) (Ideal.ofBits .f32 0x00000000#32) * x8 (ix2 (0 : Fin 1) a)) + x9 (ix1 (0 : Fin 1)) := by
  rw [val_main_v37_apply, val_main_v34_apply, val_main_v36_apply, val_main_v35_apply, Ideal.addf_def]
  refine congrArg₂ (· + ·) (Finset.sum_congr rfl fun a _ => ?_) (congrArg x9 (funext fun c => match c with | ⟨0, _⟩ => rfl))
  rw [show lidx_main_v34 (ix2 e (0 : Fin 1)) a = ix2 e a from funext fun c => match c with | ⟨0, _⟩ => rfl | ⟨1, _⟩ => rfl,
    relu_apply, val_main_v33_apply]
  exact congrArg (_ * x8 ·) (funext fun c => match c with | ⟨0, _⟩ => rfl | ⟨1, _⟩ => rfl)

/-- The gate of edge `e`: the spelled-out logistic function of its argument. -/
theorem gate_apply (e : Fin 500000) :
    val_main_v43 (F := Ideal) x0 x1 x2 x3 x4 x5 x6 x7 x8 x9 x11 x12 x13 (ix2 e (0 : Fin 1))
      = EdgeMessage.gate (fun k => val_main_v6 (F := Ideal) x0 x13 (ix2 e k)) (fun k => val_main_v13 (F := Ideal) x2 x12 (ix2 e k)) (fun k => val_main_v20 (F := Ideal) x1 x11 (ix2 e k))
          (fun a k => x3 (ix2 a k)) (fun a k => x5 (ix2 a k)) (fun a k => x6 (ix2 a k)) (fun a k => x7 (ix2 a k)) (fun a => x4 (ix1 a)) (fun a => x8 (ix2 (0 : Fin 1) a)) (x9 (ix1 (0 : Fin 1))) := by
  rw [val_main_v43_apply, val_main_v42_apply, val_main_cst_5_apply, val_main_v41_apply, val_main_v40_apply, val_main_cst_apply,
    val_main_v39_apply, val_main_v38_apply, logit_apply, Ideal.ofBits_def, Ideal.ofBits_one_f32]
  rfl

end stages

/-- Entry `(e, d)` of the reference's message array is the edge message of the rows gathered for edge `e`. -/
theorem message_apply (x0 : (⟨S200000x128, .f32⟩ : BufTy).Contents (Elt Ideal)) (x1 : (⟨S100x128, .f32⟩ : BufTy).Contents (Elt Ideal)) (x2 : (⟨S401x128, .f32⟩ : BufTy).Contents (Elt Ideal)) (x3 : (⟨S64x128, .f32⟩ : BufTy).Contents (Elt Ideal)) (x4 : (⟨S64, .f32⟩ : BufTy).Contents (Elt Ideal)) (x5 x6 x7 : (⟨S64x128, .f32⟩ : BufTy).Contents (Elt Ideal)) (x8 : (⟨S1x64, .f32⟩ : BufTy).Contents (Elt Ideal)) (x9 : (⟨S1, .f32⟩ : BufTy).Contents (Elt Ideal)) (x11 x12 x13 : (⟨S500000, .i32⟩ : BufTy).Contents (Elt Ideal)) (e : Fin 500000) (d : Fin 128) :
    val_main_v46 (F := Ideal) x0 x1 x2 x3 x4 x5 x6 x7 x8 x9 x11 x12 x13 (ix2 e d)
      = EdgeMessage.msg (fun k => val_main_v6 (F := Ideal) x0 x13 (ix2 e k)) (fun k => val_main_v13 (F := Ideal) x2 x12 (ix2 e k)) (fun k => val_main_v20 (F := Ideal) x1 x11 (ix2 e k))
          (fun a k => x3 (ix2 a k)) (fun a k => x5 (ix2 a k)) (fun a k => x6 (ix2 a k)) (fun a k => x7 (ix2 a k)) (fun a => x4 (ix1 a)) (fun a => x8 (ix2 (0 : Fin 1) a)) (x9 (ix1 (0 : Fin 1))) d := by
  rw [val_main_v46_apply, val_main_v45_apply, val_main_v44_apply,
    show idx_main_v45 (ix2 e d) = ix2 e (0 : Fin 1) from funext fun c => match c with | ⟨0, _⟩ => rfl | ⟨1, _⟩ => rfl,
    gate_apply, Ideal.mulf_def, Ideal.mulf_def]
  rfl

/-- Entry `(n, o)` of the reference's result: the aggregated messages of node `n` against row `o` of the output weight. -/
theorem result_apply (x0 : (⟨S200000x128, .f32⟩ : BufTy).Contents (Elt Ideal)) (x1 : (⟨S100x128, .f32⟩ : BufTy).Contents (Elt Ideal)) (x2 : (⟨S401x128, .f32⟩ : BufTy).Contents (Elt Ideal)) (x3 : (⟨S64x128, .f32⟩ : BufTy).Contents (Elt Ideal)) (x4 : (⟨S64, .f32⟩ : BufTy).Contents (Elt Ideal)) (x5 x6 x7 : (⟨S64x128, .f32⟩ : BufTy).Contents (Elt Ideal)) (x8 : (⟨S1x64, .f32⟩ : BufTy).Contents (Elt Ideal)) (x9 : (⟨S1, .f32⟩ : BufTy).Contents (Elt Ideal)) (x10 : (⟨S128x128, .f32⟩ : BufTy).Contents (Elt Ideal)) (x11 x12 x13 x14 : (⟨S500000, .i32⟩ : BufTy).Contents (Elt Ideal)) (n : Fin 200000) (o : Fin 128) :
    val_main_v51 (F := Ideal) x0 x1 x2 x3 x4 x5 x6 x7 x8 x9 x10 x11 x12 x13 x14 (ix2 n o)
      = ∑ k : Fin 128, val_main_v49 (F := Ideal) x0 x1 x2 x3 x4 x5 x6 x7 x8 x9 x11 x12 x13 x14 (ix2 n k) * x10 (ix2 o k) := by
  rw [val_main_v51_apply]
  refine Finset.sum_congr rfl fun k _ => ?_
  rw [val_main_v50_apply,
    show lidx_main_v51 (ix2 n o) k = ix2 n k from funext fun c => match c with | ⟨0, _⟩ => rfl | ⟨1, _⟩ => rfl,
    show idx_main_v50 (ridx_main_v51 (ix2 n o) k) = ix2 o k from funext fun c => match c with | ⟨0, _⟩ => rfl | ⟨1, _⟩ => rfl]

end Cert.ReferenceIdeal.RefValue

end
-- ==== Proof.SameResult.lean ====
/-
  The reference's result and the kernel program's result are one function of the arguments: both gather the same three
  arrays of rows, both compute every edge's message from its rows by the same formula, both add the messages into a zero
  array at the same target rows, and both multiply the aggregate by the transposed output weight.
-/
import proofs.«175758_j82678120448825_2_alg».proof.Proof.KernelValue
import proofs.«175758_j82678120448825_2_alg».proof.Proof.RefMessage

noncomputable section

namespace Cert.Proof.SameResult

open Idealize.ShloMosaic Idealize.ShloMosaic.TcCoe Idealize.ShloMosaic.ValueIdx Idealize.SL.Sem
open Cert.ReferenceIdeal.Read Cert.ReferenceIdeal.RefValue

local notation "R.S200000x128" => Cert.ReferenceIdeal.S200000x128
local notation "R.S100x128" => Cert.ReferenceIdeal.S100x128
local notation "R.S401x128" => Cert.ReferenceIdeal.S401x128
local notation "R.S64x128" => Cert.ReferenceIdeal.S64x128
local notation "R.S64" => Cert.ReferenceIdeal.S64
local notation "R.S1x64" => Cert.ReferenceIdeal.S1x64
local notation "R.S1" => Cert.ReferenceIdeal.S1
local notation "R.S128x128" => Cert.ReferenceIdeal.S128x128
local notation "R.S500000" => Cert.ReferenceIdeal.S500000

/-- The reference's message array is the array of every edge's message, from its three gathered arrays. -/
theorem ref_messages (x0 : (⟨R.S200000x128, .f32⟩ : BufTy).Contents (Elt Ideal)) (x1 : (⟨R.S100x128, .f32⟩ : BufTy).Contents (Elt Ideal))
    (x2 : (⟨R.S401x128, .f32⟩ : BufTy).Contents (Elt Ideal)) (x3 : (⟨R.S64x128, .f32⟩ : BufTy).Contents (Elt Ideal))
    (x4 : (⟨R.S64, .f32⟩ : BufTy).Contents (Elt Ideal)) (x5 x6 x7 : (⟨R.S64x128, .f32⟩ : BufTy).Contents (Elt Ideal))
    (x8 : (⟨R.S1x64, .f32⟩ : BufTy).Contents (Elt Ideal)) (x9 : (⟨R.S1, .f32⟩ : BufTy).Contents (Elt Ideal))
    (x11 x12 x13 : (⟨R.S500000, .i32⟩ : BufTy).Contents (Elt Ideal)) :
    val_main_v46 (F := Ideal) x0 x1 x2 x3 x4 x5 x6 x7 x8 x9 x11 x12 x13
      = EdgeMessage.ofArrays (val_main_v6 (F := Ideal) x0 x13) (val_main_v13 (F := Ideal) x2 x12) (val_main_v20 (F := Ideal) x1 x11)
          x3 x5 x6 x7 x4 x8 x9 := by
  funext i
  obtain ⟨e, d, rfl⟩ : ∃ (e : Fin 500000) (d : Fin 128), i = ix2 e d := ⟨i 0, i 1, eq_ix2 i⟩
  rw [message_apply, EdgeMessage.ofArrays_apply]

/-- The reference's result is the node update of its aggregate. -/
theorem ref_result (x0 : (⟨R.S200000x128, .f32⟩ : BufTy).Contents (Elt Ideal)) (x1 : (⟨R.S100x128, .f32⟩ : BufTy).Contents (Elt Ideal))
    (x2 : (⟨R.S401x128, .f32⟩ : BufTy).Contents (Elt Ideal)) (x3 : (⟨R.S64x128, .f32⟩ : BufTy).Contents (Elt Ideal))
    (x4 : (⟨R.S64, .f32⟩ : BufTy).Contents (Elt Ideal)) (x5 x6 x7 : (⟨R.S64x128, .f32⟩ : BufTy).Contents (Elt Ideal))
    (x8 : (⟨R.S1x64, .f32⟩ : BufTy).Contents (Elt Ideal)) (x9 : (⟨R.S1, .f32⟩ : BufTy).Contents (Elt Ideal))
    (x10 : (⟨R.S128x128, .f32⟩ : BufTy).Contents (Elt Ideal)) (x11 x12 x13 x14 : (⟨R.S500000, .i32⟩ : BufTy).Contents (Elt Ideal)) :
    val_main_v51 (F := Ideal) x0 x1 x2 x3 x4 x5 x6 x7 x8 x9 x10 x11 x12 x13 x14
      = EdgeMessage.update (val_main_v49 (F := Ideal) x0 x1 x2 x3 x4 x5 x6 x7 x8 x9 x11 x12 x13 x14) x10 := by
  funext i
  obtain ⟨v, o, rfl⟩ : ∃ (v : Fin 200000) (o : Fin 128), i = ix2 v o := ⟨i 0, i 1, eq_ix2 i⟩
  rw [result_apply, EdgeMessage.update_apply]

/-- Both programs gather the same subject rows … -/
theorem gather_subject (x0 : (⟨R.S200000x128, .f32⟩ : BufTy).Contents (Elt Ideal)) (x13 : (⟨R.S500000, .i32⟩ : BufTy).Contents (Elt Ideal)) :
    val_main_v6 (F := Ideal) x0 x13
      = Host.gather Cert.KernelIdeal.gather_S200000x128_S500000x1_S500000x128_1_0_n_n_0_1_1128 x0 (Cert.KernelIdeal.Boundaries.startCol 200000#32 x13) := rfl
/-- … the same relation rows … -/
theorem gather_relation (x2 : (⟨R.S401x128, .f32⟩ : BufTy).Contents (Elt Ideal)) (x12 : (⟨R.S500000, .i32⟩ : BufTy).Contents (Elt Ideal)) :
    val_main_v13 (F := Ideal) x2 x12
      = Host.gather Cert.KernelIdeal.gather_S401x128_S500000x1_S500000x128_1_0_n_n_0_1_1128 x2 (Cert.KernelIdeal.Boundaries.startCol 401#32 x12) := rfl
/-- … and the same query rows. -/
theorem gather_query (x1 : (⟨R.S100x128, .f32⟩ : BufTy).Contents (Elt Ideal)) (x11 : (⟨R.S500000, .i32⟩ : BufTy).Contents (Elt Ideal)) :
    val_main_v20 (F := Ideal) x1 x11
      = Host.gather Cert.KernelIdeal.gather_S100x128_S500000x1_S500000x128_1_0_n_n_0_1_1128 x1 (Cert.KernelIdeal.Boundaries.startCol 100#32 x11) := rfl

/-- The reference's result, of the kernel program's argument arrays, is the kernel program's result. -/
theorem same (m : (ℓ : Loc Cert.KernelIdeal.nD Cert.KernelIdeal.τ Cert.KernelIdeal.sig) → Buf (Elt Ideal) ℓ) (c : Dev Cert.KernelIdeal.nD) :
    val_main_v51 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
      = Cert.KernelIdeal.KernelValue.result m c := by
  rw [ref_result]
  unfold Cert.KernelIdeal.KernelValue.result
  refine congrArg (fun a => EdgeMessage.update a _) ?_
  unfold val_main_v49 Cert.KernelIdeal.KernelValue.aggregate Cert.KernelIdeal.KernelValue.messages
  rw [ref_messages, gather_subject, gather_relation, gather_query]
  rfl

end Cert.Proof.SameResult

end
-- ==== Proof.lean ====
/-
  The certificate: a two-launch graph-attention layer against its plain reference, over the extended reals.

  The kernel program gathers, for each of 500000 edges, a subject row, a relation row and a query row; its first launch
  computes every edge's message (a logistic gate of an attention unit layer, times the entrywise product of the subject
  and relation rows), 4000 edges per point; the host adds the messages into a zero array at their target nodes; its
  second launch multiplies the aggregate by the transposed output weight, 8000 nodes per point. The reference does the
  same with whole-array operations. Over the extended reals a narrowed operand is the operand, a product accumulated
  into the zero matrix is the plain sum over the contracted axis, a lane sum is the sum of the lane, and the logistic
  function spelled as negate, exponential, add and divide is the logistic function: the two results are one function of
  the arguments, and no entry needs to be finite for that.

  The three frames are the generated ones (the reference's is its generated run with the result dropped); no
  operation was rewritten when the idealized kernel was printed, so there is nothing to preserve.
-/
import proofs.«175758_j82678120448825_2_alg».proof.Defs
import proofs.«175758_j82678120448825_2_alg».proof.Proof.Gen.Kernel
import proofs.«175758_j82678120448825_2_alg».proof.Proof.Gen.Kernel.Frame
import proofs.«175758_j82678120448825_2_alg».proof.Proof.Gen.KernelIdeal
import proofs.«175758_j82678120448825_2_alg».proof.Proof.Gen.KernelIdeal.Frame
import proofs.«175758_j82678120448825_2_alg».proof.Proof.Gen.ReferenceIdeal
import proofs.«175758_j82678120448825_2_alg».proof.Proof.Gen.Pre_finite_inputs
import proofs.«175758_j82678120448825_2_alg».proof.Proof.Gen.ReferenceIdeal.Run
import proofs.«175758_j82678120448825_2_alg».proof.Proof.Gen.ReferenceIdeal.Read
import proofs.«175758_j82678120448825_2_alg».proof.Proof.KernelValue
import proofs.«175758_j82678120448825_2_alg».proof.Proof.SameResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments both programs run, and both end with the result array at the node update
    of the aggregated edge messages. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  rw [Cert.ReferenceIdeal.Read.val_main_v51_eq, h0, h1, h2, h3, h4, h5, h6, h7, h8, h9, h10, h11, h12, h13, h14]
  exact Cert.Proof.SameResult.same m c

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
